-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x16 : Shape := ⟨2, ![200000, 16]⟩
abbrev S4000000x1 : Shape := ⟨2, ![4000000, 1]⟩
abbrev S2x4000000 : Shape := ⟨2, ![2, 4000000]⟩
abbrev S16x16 : Shape := ⟨2, ![16, 16]⟩
abbrev S16 : Shape := ⟨1, ![16]⟩
abbrev S16x1 : Shape := ⟨2, ![16, 1]⟩
abbrev S16x32 : Shape := ⟨2, ![16, 32]⟩
abbrev S_ : Shape := ⟨0, ![]⟩

class Facts : Prop where
  bcast_S_S200000x16 : S_.BroadcastsInDim S200000x16 (![] : Fin 0 → Fin S200000x16.rank)
  reducesTo_S200000x16_S_d0_1 : S200000x16.ReducesTo [0, 1] S_
  h_S_ : 0 < S_.numel
  bcast_S_S4000000x1 : S_.BroadcastsInDim S4000000x1 (![] : Fin 0 → Fin S4000000x1.rank)
  reducesTo_S4000000x1_S_d0_1 : S4000000x1.ReducesTo [0, 1] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S16x32 : S_.BroadcastsInDim S16x32 (![] : Fin 0 → Fin S16x32.rank)
  reducesTo_S16x32_S_d0_1 : S16x32.ReducesTo [0, 1] S_

variable [Facts]

def fn_part4 {F : FTy → Type} [FloatOps F] (main_arg15 : FVec F S16 .f32) (main_v63 : IVec S_ 1) (main_v67 : IVec S_ 1) : IVec S_ 1 :=
  let main_v68 : IVec S_ 1 := andi main_v63 main_v67
  let main_v69 : FVec F S16 .f32 := Host.absf main_arg15
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  main_v73

def fn_part3 {F : FTy → Type} [FloatOps F] (main_arg12 : FVec F S16x32 .f32) (main_arg13 : FVec F S16 .f32) (main_arg14 : FVec F S16x16 .f32) (main_arg15 : FVec F S16 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x32 .f32 := Host.absf main_arg12
  let main_cst_20 : FVec F S_ .f32 := constant S_ .f32 0x7F800000#32
  let main_v55 : FVec F S16x32 .f32 := broadcastInDim S16x32 ![] bcast_S_S16x32 main_cst_20
  let main_v56 : IVec S16x32 1 := cmpf .olt main_v54 main_v55
  let main_c_21 : IVec S_ 1 := constantI S_ 1 1#1
  let main_v57 : IVec S_ 1 := (fun x v => Host.reduce IntOp.andi x v reducesTo_S16x32_S_d0_1 h_S_) main_v56 main_c_21
  let main_v58 : IVec S_ 1 := andi main_v53 main_v57
  let main_v59 : FVec F S16 .f32 := Host.absf main_arg13
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16x16 .f32 := Host.absf main_arg14
  let main_cst_24 : FVec F S_ .f32 := constant S_ .f32 0x7F800000#32
  let main_v65 : FVec F S16x16 .f32 := broadcastInDim S16x16 ![] bcast_S_S16x16 main_cst_24
  let main_v66 : IVec S16x16 1 := cmpf .olt main_v64 main_v65
  let main_c_25 : IVec S_ 1 := constantI S_ 1 1#1
  let main_v67 : IVec S_ 1 := (fun x v => Host.reduce IntOp.andi x v reducesTo_S16x16_S_d0_1 h_S_) main_v66 main_c_25
  fn_part4 (F := F) main_arg15 main_v63 main_v67

def fn_part2 {F : FTy → Type} [FloatOps F] (main_arg8 : FVec F S16x16 .f32) (main_arg9 : FVec F S16 .f32) (main_arg10 : FVec F S16x16 .f32) (main_arg11 : FVec F S16 .f32) (main_arg12 : FVec F S16x32 .f32) (main_arg13 : FVec F S16 .f32) (main_arg14 : FVec F S16x16 .f32) (main_arg15 : FVec F S16 .f32) (main_v33 : IVec S_ 1) : IVec S_ 1 :=
  let main_v34 : FVec F S16x16 .f32 := Host.absf main_arg8
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x16 .f32 := Host.absf main_arg10
  let main_cst_16 : FVec F S_ .f32 := constant S_ .f32 0x7F800000#32
  let main_v45 : FVec F S16x16 .f32 := broadcastInDim S16x16 ![] bcast_S_S16x16 main_cst_16
  let main_v46 : IVec S16x16 1 := cmpf .olt main_v44 main_v45
  let main_c_17 : IVec S_ 1 := constantI S_ 1 1#1
  let main_v47 : IVec S_ 1 := (fun x v => Host.reduce IntOp.andi x v reducesTo_S16x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg12 main_arg13 main_arg14 main_arg15 main_v48 main_v49 main_v50

def fn_part1 {F : FTy → Type} [FloatOps F] (main_arg5 : FVec F S16 .f32) (main_arg6 : FVec F S16x1 .f32) (main_arg7 : FVec F S16x16 .f32) (main_arg8 : FVec F S16x16 .f32) (main_arg9 : FVec F S16 .f32) (main_arg10 : FVec F S16x16 .f32) (main_arg11 : FVec F S16 .f32) (main_arg12 : FVec F S16x32 .f32) (main_arg13 : FVec F S16 .f32) (main_arg14 : FVec F S16x16 .f32) (main_arg15 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1 .f32 := Host.absf main_arg6
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  let main_v29 : FVec F S16x16 .f32 := Host.absf main_arg7
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S200000x16 .f32) (main_arg1 : FVec F S4000000x1 .f32) (main_arg2 : FVec F S200000x16 .f32) (main_arg3 : IVec S2x4000000 32) (main_arg4 : FVec F S16x16 .f32) (main_arg5 : FVec F S16 .f32) (main_arg6 : FVec F S16x1 .f32) (main_arg7 : FVec F S16x16 .f32) (main_arg8 : FVec F S16x16 .f32) (main_arg9 : FVec F S16 .f32) (main_arg10 : FVec F S16x16 .f32) (main_arg11 : FVec F S16 .f32) (main_arg12 : FVec F S16x32 .f32) (main_arg13 : FVec F S16 .f32) (main_arg14 : FVec F S16x16 .f32) (main_arg15 : FVec F S16 .f32) : IVec S_ 1 :=
  let main_v0 : FVec F S200000x16 .f32 := Host.absf main_arg0
  let main_cst : FVec F S_ .f32 := constant S_ .f32 0x7F800000#32
  let main_v1 : FVec F S200000x16 .f32 := broadcastInDim S200000x16 ![] bcast_S_S200000x16 main_cst
  let main_v2 : IVec S200000x16 1 := cmpf .olt main_v0 main_v1
  let main_c : IVec S_ 1 := constantI S_ 1 1#1
  let main_v3 : IVec S_ 1 := (fun x v => Host.reduce IntOp.andi x v reducesTo_S200000x16_S_d0_1 h_S_) main_v2 main_c
  let main_v4 : FVec F S4000000x1 .f32 := Host.absf main_arg1
  let main_cst_0 : FVec F S_ .f32 := constant S_ .f32 0x7F800000#32
  let main_v5 : FVec F S4000000x1 .f32 := broadcastInDim S4000000x1 ![] bcast_S_S4000000x1 main_cst_0
  let main_v6 : IVec S4000000x1 1 := cmpf .olt main_v4 main_v5
  let main_c_1 : IVec S_ 1 := constantI S_ 1 1#1
  let main_v7 : IVec S_ 1 := (fun x v => Host.reduce IntOp.andi x v reducesTo_S4000000x1_S_d0_1 h_S_) main_v6 main_c_1
  let main_v8 : IVec S_ 1 := andi main_v3 main_v7
  let main_v9 : FVec F S200000x16 .f32 := Host.absf main_arg2
  let main_cst_2 : FVec F S_ .f32 := constant S_ .f32 0x7F800000#32
  let main_v10 : FVec F S200000x16 .f32 := broadcastInDim S200000x16 ![] bcast_S_S200000x16 main_cst_2
  let main_v11 : IVec S200000x16 1 := cmpf .olt main_v9 main_v10
  let main_c_3 : IVec S_ 1 := constantI S_ 1 1#1
  let main_v12 : IVec S_ 1 := (fun x v => Host.reduce IntOp.andi x v reducesTo_S200000x16_S_d0_1 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S200000x16 : Shape := ⟨2, ![200000, 16]⟩
abbrev S4000000x1 : Shape := ⟨2, ![4000000, 1]⟩
abbrev S2x4000000 : Shape := ⟨2, ![2, 4000000]⟩
abbrev S16x16 : Shape := ⟨2, ![16, 16]⟩
abbrev S16 : Shape := ⟨1, ![16]⟩
abbrev S16x1 : Shape := ⟨2, ![16, 1]⟩
abbrev S16x32 : Shape := ⟨2, ![16, 32]⟩
abbrev S1x4000000 : Shape := ⟨2, ![1, 4000000]⟩
abbrev S4000000 : Shape := ⟨1, ![4000000]⟩
abbrev S_ : Shape := ⟨0, ![]⟩
abbrev S4000000x16 : Shape := ⟨2, ![4000000, 16]⟩
abbrev S8000x16 : Shape := ⟨2, ![8000, 16]⟩
abbrev S8000x1 : Shape := ⟨2, ![8000, 1]⟩
abbrev S1x16 : Shape := ⟨2, ![1, 16]⟩
abbrev S4000x16 : Shape := ⟨2, ![4000, 16]⟩

abbrev nBuf : Space → Nat
  | .hbm => 49
  | .vmem => 27
  | .smem => 0
  | _ => 0

abbrev bufTy : (tb : Table) → Fin (tcTables nBuf tb) → BufTy
  | .hbm, ⟨0, _⟩ => ⟨S200000x16, .f32⟩
  | .hbm, ⟨1, _⟩ => ⟨S4000000x1, .f32⟩
  | .hbm, ⟨2, _⟩ => ⟨S200000x16, .f32⟩
  | .hbm, ⟨3, _⟩ => ⟨S2x4000000, .i32⟩
  | .hbm, ⟨4, _⟩ => ⟨S16x16, .f32⟩
  | .hbm, ⟨5, _⟩ => ⟨S16, .f32⟩
  | .hbm, ⟨6, _⟩ => ⟨S16x1, .f32⟩
  | .hbm, ⟨7, _⟩ => ⟨S16x16, .f32⟩
  | .hbm, ⟨8, _⟩ => ⟨S16x16, .f32⟩
  | .hbm, ⟨9, _⟩ => ⟨S16, .f32⟩
  | .hbm, ⟨10, _⟩ => ⟨S16x16, .f32⟩
  | .hbm, ⟨11, _⟩ => ⟨S16, .f32⟩
  | .hbm, ⟨12, _⟩ => ⟨S16x32, .f32⟩
  | .hbm, ⟨13, _⟩ => ⟨S16, .f32⟩
  | .hbm, ⟨14, _⟩ => ⟨S16x16, .f32⟩
  | .hbm, ⟨15, _⟩ => ⟨S16, .f32⟩
  | .hbm, ⟨16, _⟩ => ⟨S1x4000000, .i32⟩
  | .hbm, ⟨17, _⟩ => ⟨S4000000, .i32⟩
  | .hbm, ⟨18, _⟩ => ⟨S1x4000000, .i32⟩
  | .hbm, ⟨19, _⟩ => ⟨S4000000, .i32⟩
  | .hbm, ⟨20, _⟩ => ⟨S200000x16, .bf16⟩
  | .hbm, ⟨21, _⟩ => ⟨S200000x16, .bf16⟩
  | .hbm, ⟨22, _⟩ => ⟨S4000000x1, .bf16⟩
  | .hbm, ⟨23, _⟩ => ⟨S_, .i32⟩
  | .hbm, ⟨24, _⟩ => ⟨S4000000, .i32⟩
  | .hbm, ⟨25, _⟩ => ⟨S4000000, .i1⟩
  | .hbm, ⟨26, _⟩ => ⟨S_, .i32⟩
  | .hbm, ⟨27, _⟩ => ⟨S4000000, .i32⟩
  | .hbm, ⟨28, _⟩ => ⟨S4000000, .i32⟩
  | .hbm, ⟨29, _⟩ => ⟨S4000000, .i32⟩
  | .hbm, ⟨30, _⟩ => ⟨S4000000x1, .i32⟩
  | .hbm, ⟨31, _⟩ => ⟨S4000000x16, .bf16⟩
  | .hbm, ⟨32, _⟩ => ⟨S_, .i32⟩
  | .hbm, ⟨33, _⟩ => ⟨S4000000, .i32⟩
  | .hbm, ⟨34, _⟩ => ⟨S4000000, .i1⟩
  | .hbm, ⟨35, _⟩ => ⟨S_, .i32⟩
  | .hbm, ⟨36, _⟩ => ⟨S4000000, .i32⟩
  | .hbm, ⟨37, _⟩ => ⟨S4000000, .i32⟩
  | .hbm, ⟨38, _⟩ => ⟨S4000000, .i32⟩
  | .hbm, ⟨39, _⟩ => ⟨S4000000x1, .i32⟩
  | .hbm, ⟨40, _⟩ => ⟨S4000000x16, .bf16⟩
  | .hbm, ⟨41, _⟩ => ⟨S4000000x16, .f32⟩
  | .hbm, ⟨42, _⟩ => ⟨S_, .f32⟩
  | .hbm, ⟨43, _⟩ => ⟨S200000x16, .f32⟩
  | .hbm, ⟨44, _⟩ => ⟨S4000000x1, .i32⟩
  | .hbm, ⟨45, _⟩ => ⟨S200000x16, .f32⟩
  | .hbm, ⟨46, _⟩ => ⟨S16x16, .f32⟩
  | .hbm, ⟨47, _⟩ => ⟨S16x16, .f32⟩
  | .hbm, ⟨48, _⟩ => ⟨S200000x16, .f32⟩
  | .local _ .vmem, ⟨0, _⟩ => ⟨S8000x16, .bf16⟩
  | .local _ .vmem, ⟨1, _⟩ => ⟨S8000x16, .bf16⟩
  | .local _ .vmem, ⟨2, _⟩ => ⟨S8000x1, .bf16⟩
  | .local _ .vmem, ⟨3, _⟩ => ⟨S8000x1, .bf16⟩
  | .local _ .vmem, ⟨4, _⟩ => ⟨S8000x16, .bf16⟩
  | .local _ .vmem, ⟨5, _⟩ => ⟨S8000x16, .bf16⟩
  | .local _ .vmem, ⟨6, _⟩ => ⟨S16x16, .f32⟩
  | .local _ .vmem, ⟨7, _⟩ => ⟨S16, .f32⟩
  | .local _ .vmem, ⟨8, _⟩ => ⟨S16x1, .f32⟩
  | .local _ .vmem, ⟨9, _⟩ => ⟨S16x16, .f32⟩
  | .local _ .vmem, ⟨10, _⟩ => ⟨S16x16, .f32⟩
  | .local _ .vmem, ⟨11, _⟩ => ⟨S16, .f32⟩
  | .local _ .vmem, ⟨12, _⟩ => ⟨S8000x16, .f32⟩
  | .local _ .vmem, ⟨13, _⟩ => ⟨S8000x16, .f32⟩
  | .local _ .vmem, ⟨14, _⟩ => ⟨S4000x16, .f32⟩
  | .local _ .vmem, ⟨15, _⟩ => ⟨S4000x16, .f32⟩
  | .local _ .vmem, ⟨16, _⟩ => ⟨S4000x16, .f32⟩
  | .local _ .vmem, ⟨17, _⟩ => ⟨S4000x16, .f32⟩
  | .local _ .vmem, ⟨18, _⟩ => ⟨S16x16, .f32⟩
  | .local _ .vmem, ⟨19, _⟩ => ⟨S16, .f32⟩
  | .local _ .vmem, ⟨20, _⟩ => ⟨S16x16, .f32⟩
  | .local _ .vmem, ⟨21, _⟩ => ⟨S16x16, .f32⟩
  | .local _ .vmem, ⟨22, _⟩ => ⟨S16, .f32⟩
  | .local _ .vmem, ⟨23, _⟩ => ⟨S16x16, .f32⟩
  | .local _ .vmem, ⟨24, _⟩ => ⟨S16, .f32⟩
  | .local _ .vmem, ⟨25, _⟩ => ⟨S4000x16, .f32⟩
  | .local _ .vmem, ⟨26, _⟩ => ⟨S4000x16, .f32⟩
  | _, _ => ⟨S200000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_v7 : Ref sig .tc := ⟨.hbm, 24, rfl⟩
abbrev main_v8 : Ref sig .tc := ⟨.hbm, 25, rfl⟩
abbrev main_c_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg9_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem9_1 : DmaSem sig := 26

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x16 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bitsLt_bf16_f32 : FTy.bits .bf16 < FTy.bits .f32
  bcast_S_S4000000 : S_.BroadcastsInDim S4000000 (![] : Fin 0 → Fin S4000000.rank)
  bcast_S4000000_S4000000x1_0 : S4000000.BroadcastsInDim S4000000x1 (![0] : Fin 1 → Fin S4000000x1.rank)
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S16x16_S16x16_0_0 : ∀ a, (![0, 0] : Fin 2 → Nat) a + S16x16.size a ≤ S16x16.size a
  h_S16x16 : 0 < S16x16.numel
  inb_S16x1_S16x1_0_0 : ∀ a, (![0, 0] : Fin 2 → Nat) a + S16x1.size a ≤ S16x1.size a
  h_S16x1 : 0 < S16x1.numel
  transposes_S16x16_p1_0_S16x16 : S16x16.Transposes [1, 0] S16x16
  inb_S16_S16_0 : ∀ a, (![0] : Fin 1 → Nat) a + S16.size a ≤ S16.size a
  h_S16 : 0 < S16.numel
  shapeCasts_S16_S1x16 : S16.ShapeCasts S1x16
  broadcasts_S1x16_S8000x16 : S1x16.Broadcasts S8000x16
  transposes_S16x1_p1_0_S1x16 : S16x1.Transposes [1, 0] S1x16
  bcast_S_S200000x16 : S_.BroadcastsInDim S200000x16 (![] : Fin 0 → Fin S200000x16.rank)
  slices_S16x32_S16x16_0_0 : S16x32.Slices ![0, 0] S16x16
  slices_S16x32_S16x16_0_16 : S16x32.Slices ![0, 16] S16x16
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  broadcasts_S1x16_S4000x16 : S1x16.Broadcasts S4000x16
  shapeCasts_S16x16_S16x16 : S16x16.ShapeCasts S16x16
  gather_S200000x16_S4000000x1_S4000000x16_1_0_n_n_0_1_116_wf : GatherDims.WF S200000x16 S4000000x1 S4000000x16 [1] [0] [] [0] [] 1 ![1, 16]
  dot_S8000x16_S16x16_S8000x16_1_0_0_1_n_n_wf : DotDims.WF S8000x16 S16x16 S8000x16 [1] [0] [0] [1] [] []
  dot_S8000x1_S1x16_S8000x16_1_0_0_1_n_n_wf : DotDims.WF S8000x1 S1x16 S8000x16 [1] [0] [0] [1] [] []
  scatter_S200000x16_S4000000x1_S4000000x16_1_0_0_1_wf : ScatterDims.WF S200000x16 S4000000x1 S4000000x16 [1] [0] [0] 1
  dot_S4000x16_S16x16_S4000x16_1_0_0_1_n_n_wf : DotDims.WF S4000x16 S16x16 S4000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x16.size a ≤ S4000000x16.size a
  hwx0_0 : ∀ i : grid0.Coords, EltTy.bits .bf16 = 32 ∨ (Rect.block (s := S4000000x16) S8000x16.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S4000000x1.size a
  hwx0_1 : ∀ i : grid0.Coords, EltTy.bits .bf16 = 32 ∨ (Rect.block (s := S4000000x1) S8000x1.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x16.size a ≤ S4000000x16.size a
  hwx0_2 : ∀ i : grid0.Coords, EltTy.bits .bf16 = 32 ∨ (Rect.block (s := S4000000x16) S8000x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x16.size a ≤ S16x16.size a
  hwx0_6 : ∀ i : grid0.Coords, EltTy.bits .f32 = 32 ∨ (Rect.block (s := S16x16) S16x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x16.size a ≤ S16x16.size a
  hwx0_7 : ∀ i : grid0.Coords, EltTy.bits .f32 = 32 ∨ (Rect.block (s := S16x16) S16x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16.size a ≤ S16.size a
  hwx0_8 : ∀ i : grid0.Coords, EltTy.bits .f32 = 32 ∨ (Rect.block (s := S16) S16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x16.size a ≤ S4000000x16.size a
  hwx0_9 : ∀ i : grid0.Coords, EltTy.bits .f32 = 32 ∨ (Rect.block (s := S4000000x16) S8000x16.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S200000x16.size a
  hwx1_0 : ∀ i : grid1.Coords, EltTy.bits .f32 = 32 ∨ (Rect.block (s := S200000x16) S4000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x16.size a ≤ S200000x16.size a
  hwx1_1 : ∀ i : grid1.Coords, EltTy.bits .f32 = 32 ∨ (Rect.block (s := S200000x16) S4000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16.size a ≤ S16.size a
  hwx1_3 : ∀ i : grid1.Coords, EltTy.bits .f32 = 32 ∨ (Rect.block (s := S16) S16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x16.size a ≤ S16x16.size a
  hwx1_4 : ∀ i : grid1.Coords, EltTy.bits .f32 = 32 ∨ (Rect.block (s := S16x16) S16x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x16.size a ≤ S16x16.size a
  hwx1_5 : ∀ i : grid1.Coords, EltTy.bits .f32 = 32 ∨ (Rect.block (s := S16x16) S16x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16.size a ≤ S16.size a
  hwx1_6 : ∀ i : grid1.Coords, EltTy.bits .f32 = 32 ∨ (Rect.block (s := S16) S16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16x16.size a ≤ S16x16.size a
  hwx1_7 : ∀ i : grid1.Coords, EltTy.bits .f32 = 32 ∨ (Rect.block (s := S16x16) S16x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S16.size a ≤ S16.size a
  hwx1_8 : ∀ i : grid1.Coords, EltTy.bits .f32 = 32 ∨ (Rect.block (s := S16) S16.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x16.size a ≤ S200000x16.size a
  hwx1_9 : ∀ i : grid1.Coords, EltTy.bits .f32 = 32 ∨ (Rect.block (s := S200000x16) S4000x16.size (cc1_transform_9 i) (hinb1_9 i)).WholeWords (EltTy.packing .f32)

variable [Facts₀]

def gather_S200000x16_S4000000x1_S4000000x16_1_0_n_n_0_1_116 : GatherDims S200000x16 S4000000x1 S4000000x16 where
  offsetDims := [1]
  collapsedSliceDims := [0]
  operandBatchingDims := []
  startIndicesBatchingDims := []
  startIndexMap := [0]
  indexVectorDim := 1
  sliceSizes := ![1, 16]
  wf := gather_S200000x16_S4000000x1_S4000000x16_1_0_n_n_0_1_116_wf
def dot_S8000x16_S16x16_S8000x16_1_0_0_1_n_n : DotDims S8000x16 S16x16 S8000x16 where
  lhsContracting := [1]
  rhsContracting := [0]
  lhsNonContracting := [0]
  rhsNonContracting := [1]
  lhsBatch := []
  rhsBatch := []
  wf := dot_S8000x16_S16x16_S8000x16_1_0_0_1_n_n_wf
def dot_S8000x1_S1x16_S8000x16_1_0_0_1_n_n : DotDims S8000x1 S1x16 S8000x16 where
  lhsContracting := [1]
  rhsContracting := [0]
  lhsNonContracting := [0]
  rhsNonContracting := [1]
  lhsBatch := []
  rhsBatch := []
  wf := dot_S8000x1_S1x16_S8000x16_1_0_0_1_n_n_wf
def scatter_S200000x16_S4000000x1_S4000000x16_1_0_0_1 : ScatterDims S200000x16 S4000000x1 S4000000x16 where
  updateWindowDims := [1]
  insertedWindowDims := [0]
  scatterDimsToOperandDims := [0]
  indexVectorDim := 1
  wf := scatter_S200000x16_S4000000x1_S4000000x16_1_0_0_1_wf
def dot_S4000x16_S16x16_S4000x16_1_0_0_1_n_n : DotDims S4000x16 S16x16 S4000x16 where
  lhsContracting := [1]
  rhsContracting := [0]
  lhsNonContracting := [0]
  rhsNonContracting := [1]
  lhsBatch := []
  rhsBatch := []
  wf := dot_S4000x16_S16x16_S4000x16_1_0_0_1_n_n_wf

abbrev win0_0 : Pipeline.Window sig grid0 :=
  Pipeline.Window.ofSpec (Memref.whole main_v13) S8000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S8000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S16x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S16x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S8000x16.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v24) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S16x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S16x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S16x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg15) S16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v27) S4000x16.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S200000x16 : Shape := ⟨2, ![200000, 16]⟩
abbrev S4000000x1 : Shape := ⟨2, ![4000000, 1]⟩
abbrev S2x4000000 : Shape := ⟨2, ![2, 4000000]⟩
abbrev S16x16 : Shape := ⟨2, ![16, 16]⟩
abbrev S16 : Shape := ⟨1, ![16]⟩
abbrev S16x1 : Shape := ⟨2, ![16, 1]⟩
abbrev S16x32 : Shape := ⟨2, ![16, 32]⟩
abbrev S1x4000000 : Shape := ⟨2, ![1, 4000000]⟩
abbrev S4000000 : Shape := ⟨1, ![4000000]⟩
abbrev S_ : Shape := ⟨0, ![]⟩
abbrev S4000000x16 : Shape := ⟨2, ![4000000, 16]⟩
abbrev S1x16 : Shape := ⟨2, ![1, 16]⟩
abbrev S200000x32 : Shape := ⟨2, ![200000, 32]⟩
abbrev S32x16 : Shape := ⟨2, ![32, 16]⟩

abbrev nBuf : Space → Nat
  | .hbm => 83
  | .vmem => 0
  | .smem => 0
  | _ => 0

abbrev bufTy : (tb : Table) → Fin (tcTables nBuf tb) → BufTy
  | .hbm, ⟨0, _⟩ => ⟨S200000x16, .f32⟩
  | .hbm, ⟨1, _⟩ => ⟨S4000000x1, .f32⟩
  | .hbm, ⟨2, _⟩ => ⟨S200000x16, .f32⟩
  | .hbm, ⟨3, _⟩ => ⟨S2x4000000, .i32⟩
  | .hbm, ⟨4, _⟩ => ⟨S16x16, .f32⟩
  | .hbm, ⟨5, _⟩ => ⟨S16, .f32⟩
  | .hbm, ⟨6, _⟩ => ⟨S16x1, .f32⟩
  | .hbm, ⟨7, _⟩ => ⟨S16x16, .f32⟩
  | .hbm, ⟨8, _⟩ => ⟨S16x16, .f32⟩
  | .hbm, ⟨9, _⟩ => ⟨S16, .f32⟩
  | .hbm, ⟨10, _⟩ => ⟨S16x16, .f32⟩
  | .hbm, ⟨11, _⟩ => ⟨S16, .f32⟩
  | .hbm, ⟨12, _⟩ => ⟨S16x32, .f32⟩
  | .hbm, ⟨13, _⟩ => ⟨S16, .f32⟩
  | .hbm, ⟨14, _⟩ => ⟨S16x16, .f32⟩
  | .hbm, ⟨15, _⟩ => ⟨S16, .f32⟩
  | .hbm, ⟨16, _⟩ => ⟨S1x4000000, .i32⟩
  | .hbm, ⟨17, _⟩ => ⟨S4000000, .i32⟩
  | .hbm, ⟨18, _⟩ => ⟨S1x4000000, .i32⟩
  | .hbm, ⟨19, _⟩ => ⟨S4000000, .i32⟩
  | .hbm, ⟨20, _⟩ => ⟨S_, .i32⟩
  | .hbm, ⟨21, _⟩ => ⟨S4000000, .i32⟩
  | .hbm, ⟨22, _⟩ => ⟨S4000000, .i1⟩
  | .hbm, ⟨23, _⟩ => ⟨S_, .i32⟩
  | .hbm, ⟨24, _⟩ => ⟨S4000000, .i32⟩
  | .hbm, ⟨25, _⟩ => ⟨S4000000, .i32⟩
  | .hbm, ⟨26, _⟩ => ⟨S4000000, .i32⟩
  | .hbm, ⟨27, _⟩ => ⟨S4000000x1, .i32⟩
  | .hbm, ⟨28, _⟩ => ⟨S4000000x16, .f32⟩
  | .hbm, ⟨29, _⟩ => ⟨S16x16, .f32⟩
  | .hbm, ⟨30, _⟩ => ⟨S4000000x16, .f32⟩
  | .hbm, ⟨31, _⟩ => ⟨S1x16, .f32⟩
  | .hbm, ⟨32, _⟩ => ⟨S4000000x16, .f32⟩
  | .hbm, ⟨33, _⟩ => ⟨S4000000x16, .f32⟩
  | .hbm, ⟨34, _⟩ => ⟨S1x16, .f32⟩
  | .hbm, ⟨35, _⟩ => ⟨S4000000x16, .f32⟩
  | .hbm, ⟨36, _⟩ => ⟨S4000000x16, .f32⟩
  | .hbm, ⟨37, _⟩ => ⟨S_, .i32⟩
  | .hbm, ⟨38, _⟩ => ⟨S4000000, .i32⟩
  | .hbm, ⟨39, _⟩ => ⟨S4000000, .i1⟩
  | .hbm, ⟨40, _⟩ => ⟨S_, .i32⟩
  | .hbm, ⟨41, _⟩ => ⟨S4000000, .i32⟩
  | .hbm, ⟨42, _⟩ => ⟨S4000000, .i32⟩
  | .hbm, ⟨43, _⟩ => ⟨S4000000, .i32⟩
  | .hbm, ⟨44, _⟩ => ⟨S4000000x1, .i32⟩
  | .hbm, ⟨45, _⟩ => ⟨S4000000x16, .f32⟩
  | .hbm, ⟨46, _⟩ => ⟨S16x16, .f32⟩
  | .hbm, ⟨47, _⟩ => ⟨S4000000x16, .f32⟩
  | .hbm, ⟨48, _⟩ => ⟨S4000000x16, .f32⟩
  | .hbm, ⟨49, _⟩ => ⟨S_, .f32⟩
  | .hbm, ⟨50, _⟩ => ⟨S4000000x16, .f32⟩
  | .hbm, ⟨51, _⟩ => ⟨S4000000x16, .f32⟩
  | .hbm, ⟨52, _⟩ => ⟨S16x16, .f32⟩
  | .hbm, ⟨53, _⟩ => ⟨S4000000x16, .f32⟩
  | .hbm, ⟨54, _⟩ => ⟨S1x16, .f32⟩
  | .hbm, ⟨55, _⟩ => ⟨S4000000x16, .f32⟩
  | .hbm, ⟨56, _⟩ => ⟨S4000000x16, .f32⟩
  | .hbm, ⟨57, _⟩ => ⟨S_, .f32⟩
  | .hbm, ⟨58, _⟩ => ⟨S200000x16, .f32⟩
  | .hbm, ⟨59, _⟩ => ⟨S4000000x1, .i32⟩
  | .hbm, ⟨60, _⟩ => ⟨S200000x16, .f32⟩
  | .hbm, ⟨61, _⟩ => ⟨S_, .f32⟩
  | .hbm, ⟨62, _⟩ => ⟨S200000x16, .f32⟩
  | .hbm, ⟨63, _⟩ => ⟨S200000x16, .f32⟩
  | .hbm, ⟨64, _⟩ => ⟨S16x16, .f32⟩
  | .hbm, ⟨65, _⟩ => ⟨S200000x16, .f32⟩
  | .hbm, ⟨66, _⟩ => ⟨S1x16, .f32⟩
  | .hbm, ⟨67, _⟩ => ⟨S200000x16, .f32⟩
  | .hbm, ⟨68, _⟩ => ⟨S200000x16, .f32⟩
  | .hbm, ⟨69, _⟩ => ⟨S200000x32, .f32⟩
  | .hbm, ⟨70, _⟩ => ⟨S32x16, .f32⟩
  | .hbm, ⟨71, _⟩ => ⟨S200000x16, .f32⟩
  | .hbm, ⟨72, _⟩ => ⟨S1x16, .f32⟩
  | .hbm, ⟨73, _⟩ => ⟨S200000x16, .f32⟩
  | .hbm, ⟨74, _⟩ => ⟨S200000x16, .f32⟩
  | .hbm, ⟨75, _⟩ => ⟨S_, .f32⟩
  | .hbm, ⟨76, _⟩ => ⟨S200000x16, .f32⟩
  | .hbm, ⟨77, _⟩ => ⟨S200000x16, .f32⟩
  | .hbm, ⟨78, _⟩ => ⟨S16x16, .f32⟩
  | .hbm, ⟨79, _⟩ => ⟨S200000x16, .f32⟩
  | .hbm, ⟨80, _⟩ => ⟨S1x16, .f32⟩
  | .hbm, ⟨81, _⟩ => ⟨S200000x16, .f32⟩
  | .hbm, ⟨82, _⟩ => ⟨S200000x16, .f32⟩
  | _, _ => ⟨S200000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_call1_cst : Ref sig .tc := ⟨.hbm, 61, rfl⟩
abbrev main_call1_v0 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call2_cst : Ref sig .tc := ⟨.hbm, 75, rfl⟩
abbrev main_call2_v0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  transposes_S16x16_S16x16_1_0 : S16x16.Transposes [1, 0] S16x16
  bcast_S16_S1x16_1 : S16.BroadcastsInDim S1x16 (![1] : Fin 1 → Fin S1x16.rank)
  bcast_S1x16_S4000000x16_0_1 : S1x16.BroadcastsInDim S4000000x16 (![0, 1] : Fin 2 → Fin S4000000x16.rank)
  transposes_S16x1_S1x16_1_0 : S16x1.Transposes [1, 0] S1x16
  bcast_S_S4000000x16 : S_.BroadcastsInDim S4000000x16 (![] : Fin 0 → Fin S4000000x16.rank)
  bcast_S_S200000x16 : S_.BroadcastsInDim S200000x16 (![] : Fin 0 → Fin S200000x16.rank)
  bcast_S1x16_S200000x16_0_1 : S1x16.BroadcastsInDim S200000x16 (![0, 1] : Fin 2 → Fin S200000x16.rank)
  concatenates_S200000x16_S200000x16_S200000x32_d1 : Shape.Concatenates [S200000x16, S200000x16] S200000x32 1
  transposes_S16x32_S32x16_1_0 : S16x32.Transposes [1, 0] S32x16
  gather_S200000x16_S4000000x1_S4000000x16_1_0_n_n_0_1_116_wf : GatherDims.WF S200000x16 S4000000x1 S4000000x16 [1] [0] [] [0] [] 1 ![1, 16]
  dot_S4000000x16_S16x16_S4000000x16_1_0_0_1_n_n_wf : DotDims.WF S4000000x16 S16x16 S4000000x16 [1] [0] [0] [1] [] []
  dot_S4000000x1_S1x16_S4000000x16_1_0_0_1_n_n_wf : DotDims.WF S4000000x1 S1x16 S4000000x16 [1] [0] [0] [1] [] []
  scatter_S200000x16_S4000000x1_S4000000x16_1_0_0_1_wf : ScatterDims.WF S200000x16 S4000000x1 S4000000x16 [1] [0] [0] 1
  dot_S200000x16_S16x16_S200000x16_1_0_0_1_n_n_wf : DotDims.WF S200000x16 S16x16 S200000x16 [1] [0] [0] [1] [] []
  dot_S200000x32_S32x16_S200000x16_1_0_0_1_n_n_wf : DotDims.WF S200000x32 S32x16 S200000x16 [1] [0] [0] [1] [] []

variable [Facts₀]

def gather_S200000x16_S4000000x1_S4000000x16_1_0_n_n_0_1_116 : GatherDims S200000x16 S4000000x1 S4000000x16 where
  offsetDims := [1]
  collapsedSliceDims := [0]
  operandBatchingDims := []
  startIndicesBatchingDims := []
  startIndexMap := [0]
  indexVectorDim := 1
  sliceSizes := ![1, 16]
  wf := gather_S200000x16_S4000000x1_S4000000x16_1_0_n_n_0_1_116_wf
def dot_S4000000x16_S16x16_S4000000x16_1_0_0_1_n_n : DotDims S4000000x16 S16x16 S4000000x16 where
  lhsContracting := [1]
  rhsContracting := [0]
  lhsNonContracting := [0]
  rhsNonContracting := [1]
  lhsBatch := []
  rhsBatch := []
  wf := dot_S4000000x16_S16x16_S4000000x16_1_0_0_1_n_n_wf
def dot_S4000000x1_S1x16_S4000000x16_1_0_0_1_n_n : DotDims S4000000x1 S1x16 S4000000x16 where
  lhsContracting := [1]
  rhsContracting := [0]
  lhsNonContracting := [0]
  rhsNonContracting := [1]
  lhsBatch := []
  rhsBatch := []
  wf := dot_S4000000x1_S1x16_S4000000x16_1_0_0_1_n_n_wf
def scatter_S200000x16_S4000000x1_S4000000x16_1_0_0_1 : ScatterDims S200000x16 S4000000x1 S4000000x16 where
  updateWindowDims := [1]
  insertedWindowDims := [0]
  scatterDimsToOperandDims := [0]
  indexVectorDim := 1
  wf := scatter_S200000x16_S4000000x1_S4000000x16_1_0_0_1_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf
def dot_S200000x32_S32x16_S200000x16_1_0_0_1_n_n : DotDims S200000x32 S32x16 S200000x16 where
  lhsContracting := [1]
  rhsContracting := [0]
  lhsNonContracting := [0]
  rhsNonContracting := [1]
  lhsBatch := []
  rhsBatch := []
  wf := dot_S200000x32_S32x16_S200000x16_1_0_0_1_n_n_wf

class Facts : Prop extends Facts₀ where

variable [Facts]
-- ==== Proof.KernelRun.lean ====
/-
  The idealized kernel's run with its result named. The program is four segments: the host operations that gather the
  two feature tables by the edge list, the per-edge message kernel on a grid of 500 blocks of 8000 edges, the host's
  scatter-add of the messages into the right-hand nodes, and the per-node kernel on a grid of 50 blocks of 4000 nodes.
  Every weakly fair execution ends, nothing faulting, with every buffer that outlives a kernel at the contents the
  segments' boundary valuations give it: the result array at the last valuation's value for it, the arguments as launched.
-/
import proofs.«170209_j60610578481387_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the value the last
    boundary valuation gives it, and the sixteen argument arrays end as they were launched. -/
theorem run_value : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩)

end Cert.KernelIdeal.RunValue

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«170209_j60610578481387_2_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibSplitLayer.lean ====
/-
  A linear layer applied to rows that come in two parts, followed by the rectifier, over the extended reals, in its two
  spellings. A row-tiled kernel holds the weight matrix `W` (one row per output feature, `K₁ + K₂` columns) as two
  transposed column ranges `W₁ = (W[:, :K₁])ᵀ` and `W₂ = (W[:, K₁:])ᵀ`, multiplies each part of the row block by its range on
  the matrix unit (the rounding of the operands to bf16 is the identity on the extended reals, and a product into the zero
  accumulator is the finite sum over the contracted coordinate), adds the two products, adds the bias row and takes the
  maximum with zero. The host lays the two parts side by side, multiplies the `K₁ + K₂`-wide rows by `Wᵀ` in one
  `dot_general`, adds the bias lifted twice and takes the maximum with a broadcast zero. Entry `(r, j)` of either is
    max (Σ_{k < K₁} X₁(r,k)·W(j,k) + Σ_{k < K₂} X₂(r,k)·W(j,K₁+k) + b(j)) 0 :
  a sum over `Fin (K₁ + K₂)` is the sum over its first `K₁` positions plus the sum over the remaining `K₂`, which holds
  in every commutative additive monoid, so nothing here asks the entries to be finite.
-/
import Idealize.ShloMosaic.PureOps.Ideal.Laws
import Idealize.ShloMosaic.Lib.ValueIdx
import Idealize.ShloMosaic.Lib.ValueLayout
import Idealize.ShloMosaic.Lib.Pipeline.Value
import proofs.«170209_j60610578481387_2_alg».proof.Proof.LibPlainDot
import proofs.«170209_j60610578481387_2_alg».proof.Proof.LibAffine

namespace Idealize.ShloMosaic.SplitLayer

open Idealize.ShloMosaic.ValueIdx

variable {A K₁ K₂ K M : Nat}

/-- The layer on rows in two parts with the weights in two transposed ranges: entry `(r, j)` is
    `max (Σ_k X₁(r,k)·W₁(k,j) + Σ_k X₂(r,k)·W₂(k,j) + b(j)) 0`. -/
noncomputable def layer (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32) :
    FVec Ideal ⟨2, ![A, M]⟩ .f32 :=
  fun i => max (((∑ k : Fin K₁, X₁ (ix2 ⟨(i 0).val, idx2_lt0 i⟩ k) * W₁ (ix2 k ⟨(i 1).val, idx2_lt1 i⟩))
      + (∑ k : Fin K₂, X₂ (ix2 ⟨(i 0).val, idx2_lt0 i⟩ k) * W₂ (ix2 k ⟨(i 1).val, idx2_lt1 i⟩)))
      + b (ix1 ⟨(i 1).val, idx2_lt1 i⟩)) (Ideal.ofBits .f32 0x00000000#32)

theorem layer_ix2 (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32)
    (p : Fin A) (q : Fin M) :
    layer X₁ X₂ W₁ W₂ b (ix2 p q)
      = max (((∑ k : Fin K₁, X₁ (ix2 p k) * W₁ (ix2 k q)) + (∑ k : Fin K₂, X₂ (ix2 p k) * W₂ (ix2 k q))) + b (ix1 q))
          (Ideal.ofBits .f32 0x00000000#32) := rfl

/-- An entry of the layer depends on its own row of the two parts, its own column of the two weight ranges and its own
    bias entry only: row `p`, column `q` of the layer on a block of rows is row `r`, column `q` of the layer on whole
    arrays when those five agree. -/
theorem layer_entry_congr {B : Nat} (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32)
    (x₁ : FVec Ideal ⟨2, ![B, K₁]⟩ .f32) (x₂ : FVec Ideal ⟨2, ![B, K₂]⟩ .f32)
    (w₁ : FVec Ideal ⟨2, ![K₁, M]⟩ .f32) (w₂ : FVec Ideal ⟨2, ![K₂, M]⟩ .f32) (b' : FVec Ideal ⟨1, ![M]⟩ .f32)
    (p : Fin B) (r : Fin A) (q : Fin M)
    (h₁ : ∀ k, x₁ (ix2 p k) = X₁ (ix2 r k)) (h₂ : ∀ k, x₂ (ix2 p k) = X₂ (ix2 r k))
    (h₃ : ∀ k, w₁ (ix2 k q) = W₁ (ix2 k q)) (h₄ : ∀ k, w₂ (ix2 k q) = W₂ (ix2 k q)) (h₅ : b' (ix1 q) = b (ix1 q)) :
    layer x₁ x₂ w₁ w₂ b' (ix2 p q) = layer X₁ X₂ W₁ W₂ b (ix2 r q) := by
  rw [layer_ix2, layer_ix2]
  simp only [h₁, h₂, h₃, h₄, h₅]

/-- The kernel body's value at row `p`, column `q` of its block: two products into zero accumulators added, the bias
    `[M]` recast to a row and repeated down the block, the maximum with a splat zero. -/
theorem body_apply (prec : Option ContractPrecision) (x₁ : FVec Ideal ⟨2, ![A, K₁]⟩ .f32) (x₂ : FVec Ideal ⟨2, ![A, K₂]⟩ .f32)
    (w₁ : FVec Ideal ⟨2, ![K₁, M]⟩ .f32) (w₂ : FVec Ideal ⟨2, ![K₂, M]⟩ .f32) (b : FVec Ideal ⟨1, ![M]⟩ .f32)
    (ht : FTy.bf16.bits < FTy.f32.bits) (hc : (⟨1, ![M]⟩ : Shape).ShapeCasts ⟨2, ![1, M]⟩)
    (hb : (⟨2, ![1, M]⟩ : Shape).Broadcasts ⟨2, ![A, M]⟩) (p : Fin A) (q : Fin M) :
    maximumf
        (addf
          (addf
            (FloatOps.matmul (DotDims.plain A K₁ M) prec (truncf .bf16 x₁ ht) (truncf .bf16 w₁ ht) (constant ⟨2, ![A, M]⟩ .f32 0x00000000#32))
            (FloatOps.matmul (DotDims.plain A K₂ M) prec (truncf .bf16 x₂ ht) (truncf .bf16 w₂ ht) (constant ⟨2, ![A, M]⟩ .f32 0x00000000#32)))
          (broadcastTo ⟨2, ![A, M]⟩ (shapeCast ⟨2, ![1, M]⟩ b hc) hb))
        (broadcast ⟨2, ![A, M]⟩ (Scalar.ofBits (F := Ideal) .f32 0x00000000#32)) (ix2 p q)
      = layer x₁ x₂ w₁ w₂ b (ix2 p q) := by
  rw [layer_ix2]
  refine (maximumf_apply _ _ _).trans (congrArg₂ max ?_ rfl)
  refine (addf_apply _ _ _).trans (congrArg₂ (· + ·) ?_ ?_)
  · refine (addf_apply _ _ _).trans (congrArg₂ (· + ·) ?_ ?_)
    · exact PlainDot.matmul_apply_ix2 prec (truncf .bf16 x₁ ht) (truncf .bf16 w₁ ht) p q
    · exact PlainDot.matmul_apply_ix2 prec (truncf .bf16 x₂ ht) (truncf .bf16 w₂ ht) p q
  · exact (broadcastTo_1b_ab_apply _ hb p q).trans (shapeCast_a_1a_apply b hc 0 q)

/-- Two arrays laid side by side along the columns, read in the first one's columns. -/
theorem concat_cols_left (X₁ : FVec Ideal ⟨2, ![A, K₁]⟩ .f32) (X₂ : FVec Ideal ⟨2, ![A, K₂]⟩ .f32)
    (hcat : Shape.Concatenates [(⟨2, ![A, K₁]⟩ : Shape), ⟨2, ![A, K₂]⟩] ⟨2, ![A, K₁ + K₂]⟩ 1) (p : Fin A) (k : Fin K₁) :
    concatenate ⟨2, ![A, K₁ + K₂]⟩ 1 [⟨⟨2, ![A, K₁]⟩, X₁⟩, ⟨⟨2, ![A, K₂]⟩, X₂⟩] hcat (ix2 p (Fin.castAdd K₂ k)) = X₁ (ix2 p k) :=
  concatenate_pair_apply_left 1 X₁ X₂ hcat (ix2 p (Fin.castAdd K₂ k)) rfl (ix2 p k) fun b =>
    match b with
    | ⟨0, _⟩ => rfl
    | ⟨1, _⟩ => rfl

/-- Two arrays laid side by side along the columns, read in the second one's columns. -/
theorem concat_cols_right (X₁ : FVec Ideal ⟨2, ![A, K₁]⟩ .f32) (X₂ : FVec Ideal ⟨2, ![A, K₂]⟩ .f32)
    (hcat : Shape.Concatenates [(⟨2, ![A, K₁]⟩ : Shape), ⟨2, ![A, K₂]⟩] ⟨2, ![A, K₁ + K₂]⟩ 1) (p : Fin A) (k : Fin K₂) :
    concatenate ⟨2, ![A, K₁ + K₂]⟩ 1 [⟨⟨2, ![A, K₁]⟩, X₁⟩, ⟨⟨2, ![A, K₂]⟩, X₂⟩] hcat (ix2 p (Fin.natAdd K₁ k)) = X₂ (ix2 p k) :=
  concatenate_pair_apply_right 1 X₁ X₂ hcat (ix2 p (Fin.natAdd K₁ k)) rfl rfl (ix2 p k)
    (fun b hb =>
      match b, hb with
      | ⟨0, _⟩, _ => rfl
      | ⟨1, _⟩, hb => absurd rfl hb)
    (show k.val + K₁ = K₁ + k.val from Nat.add_comm _ _)

/-- A matrix transposed, read at `(c, q)`: the matrix at `(q, c)`. -/
theorem transpose_ix2 {R C : Nat} (W : FVec Ideal ⟨2, ![R, C]⟩ .f32) (h : (⟨2, ![R, C]⟩ : Shape).Transposes [1, 0] ⟨2, ![C, R]⟩)
    (c : Fin C) (q : Fin R) : transpose ⟨2, ![C, R]⟩ [1, 0] W h (ix2 c q) = W (ix2 q c) :=
  transpose_apply [1, 0] W h (ix2 c q) (ix2 q c) fun b =>
    match b with
    | ⟨0, _⟩ => rfl
    | ⟨1, _⟩ => rfl

/-- A range of `C'` columns of a matrix starting at column `o`, transposed, read at `(k, q)`: the matrix at `(q, o + k)`. -/
theorem transpose_cols_ix2 {R C C' : Nat} (o : Nat) (W : FVec Ideal ⟨2, ![R, C]⟩ .f32)
    (hs : (⟨2, ![R, C]⟩ : Shape).Slices ![0, o] ⟨2, ![R, C']⟩)
    (h : (⟨2, ![R, C']⟩ : Shape).Transposes [1, 0] ⟨2, ![C', R]⟩) (k : Fin C') (q : Fin R) (hk : o + k.val < C) :
    transpose ⟨2, ![C', R]⟩ [1, 0] (extractStridedSlice ⟨2, ![R, C']⟩ ![0, o] W hs) h (ix2 k q) = W (ix2 q ⟨o + k.val, hk⟩) :=
  (transpose_ix2 _ h k q).trans
    (extractStridedSlice_apply ![0, o] W hs (ix2 q k) (ix2 q ⟨o + k.val, hk⟩) fun a =>
      match a with
      | ⟨0, _⟩ => (Nat.zero_add _).symm
      | ⟨1, _⟩ => rfl)

/-- The host's spelling at `(p, q)`, against the layer on the two transposed column ranges of the weight matrix. -/
theorem host_apply (prec : Option ContractPrecision) (sched : HostSchedule)
    (X₁ : FVec Ideal ⟨2, ![A, K₁]⟩ .f32) (X₂ : FVec Ideal ⟨2, ![A, K₂]⟩ .f32) (W : FVec Ideal ⟨2, ![M, K₁ + K₂]⟩ .f32)
    (b : FVec Ideal ⟨1, ![M]⟩ .f32)
    (hcat : Shape.Concatenates [(⟨2, ![A, K₁]⟩ : Shape), ⟨2, ![A, K₂]⟩] ⟨2, ![A, K₁ + K₂]⟩ 1)
    (htr : (⟨2, ![M, K₁ + K₂]⟩ : Shape).Transposes [1, 0] ⟨2, ![K₁ + K₂, M]⟩)
    (hs₁ : (⟨2, ![M, K₁ + K₂]⟩ : Shape).Slices ![0, 0] ⟨2, ![M, K₁]⟩)
    (ht₁ : (⟨2, ![M, K₁]⟩ : Shape).Transposes [1, 0] ⟨2, ![K₁, M]⟩)
    (hs₂ : (⟨2, ![M, K₁ + K₂]⟩ : Shape).Slices ![0, K₁] ⟨2, ![M, K₂]⟩)
    (ht₂ : (⟨2, ![M, K₂]⟩ : Shape).Transposes [1, 0] ⟨2, ![K₂, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (h0 : (⟨0, ![]⟩ : Shape).BroadcastsInDim ⟨2, ![A, M]⟩ ![]) (p : Fin A) (q : Fin M) :
    maximumf
        (addf
          (FloatOps.dotGeneral (DotDims.plain A (K₁ + K₂) M) prec sched
            (concatenate ⟨2, ![A, K₁ + K₂]⟩ 1 [⟨⟨2, ![A, K₁]⟩, X₁⟩, ⟨⟨2, ![A, K₂]⟩, X₂⟩] hcat)
            (transpose ⟨2, ![K₁ + K₂, M]⟩ [1, 0] W htr))
          (broadcastInDim ⟨2, ![A, M]⟩ ![0, 1] h2 (broadcastInDim ⟨2, ![1, M]⟩ ![1] h1 b)))
        (broadcastInDim ⟨2, ![A, M]⟩ ![] h0 (constant (F := Ideal) ⟨0, ![]⟩ .f32 0x00000000#32)) (ix2 p q)
      = layer X₁ X₂
          (transpose ⟨2, ![K₁, M]⟩ [1, 0] (extractStridedSlice ⟨2, ![M, K₁]⟩ ![0, 0] W hs₁) ht₁)
          (transpose ⟨2, ![K₂, M]⟩ [1, 0] (extractStridedSlice ⟨2, ![M, K₂]⟩ ![0, K₁] W hs₂) ht₂) b (ix2 p q) := by
  rw [layer_ix2]
  refine (maximumf_apply _ _ _).trans (congrArg₂ max ?_ ?_)
  · refine (addf_apply _ _ _).trans (congrArg₂ (· + ·) ?_ (Affine.bias_rows_apply b h1 h2 p q))
    refine (PlainDot.dotGeneral_apply_ix2 prec sched _ _ p q).trans ?_
    rw [Fin.sum_univ_add]
    refine congrArg₂ (· + ·) (Finset.sum_congr rfl fun k _ => ?_) (Finset.sum_congr rfl fun k _ => ?_)
    · refine congrArg₂ (· * ·) (concat_cols_left X₁ X₂ hcat p k) ?_
      refine (transpose_ix2 W htr (Fin.castAdd K₂ k) q).trans ?_
      refine ((transpose_cols_ix2 0 W hs₁ ht₁ k q (by have := k.isLt; omega)).trans ?_).symm
      exact congrArg W (congrArg (ix2 q) (Fin.ext (Nat.zero_add _)))
    · refine congrArg₂ (· * ·) (concat_cols_right X₁ X₂ hcat p k) ?_
      refine (transpose_ix2 W htr (Fin.natAdd K₁ k) q).trans ?_
      exact (transpose_cols_ix2 K₁ W hs₂ ht₂ k q (by have := k.isLt; omega)).symm
  · exact broadcastInDim_apply _ h0 _ (ix2 p q) ix0 fun a => a.elim0

/-- The two spellings are one array. -/
theorem host_eq (prec : Option ContractPrecision) (sched : HostSchedule)
    (X₁ : FVec Ideal ⟨2, ![A, K₁]⟩ .f32) (X₂ : FVec Ideal ⟨2, ![A, K₂]⟩ .f32) (W : FVec Ideal ⟨2, ![M, K₁ + K₂]⟩ .f32)
    (b : FVec Ideal ⟨1, ![M]⟩ .f32)
    (hcat : Shape.Concatenates [(⟨2, ![A, K₁]⟩ : Shape), ⟨2, ![A, K₂]⟩] ⟨2, ![A, K₁ + K₂]⟩ 1)
    (htr : (⟨2, ![M, K₁ + K₂]⟩ : Shape).Transposes [1, 0] ⟨2, ![K₁ + K₂, M]⟩)
    (hs₁ : (⟨2, ![M, K₁ + K₂]⟩ : Shape).Slices ![0, 0] ⟨2, ![M, K₁]⟩)
    (ht₁ : (⟨2, ![M, K₁]⟩ : Shape).Transposes [1, 0] ⟨2, ![K₁, M]⟩)
    (hs₂ : (⟨2, ![M, K₁ + K₂]⟩ : Shape).Slices ![0, K₁] ⟨2, ![M, K₂]⟩)
    (ht₂ : (⟨2, ![M, K₂]⟩ : Shape).Transposes [1, 0] ⟨2, ![K₂, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (h0 : (⟨0, ![]⟩ : Shape).BroadcastsInDim ⟨2, ![A, M]⟩ ![]) :
    maximumf
        (addf
          (FloatOps.dotGeneral (DotDims.plain A (K₁ + K₂) M) prec sched
            (concatenate ⟨2, ![A, K₁ + K₂]⟩ 1 [⟨⟨2, ![A, K₁]⟩, X₁⟩, ⟨⟨2, ![A, K₂]⟩, X₂⟩] hcat)
            (transpose ⟨2, ![K₁ + K₂, M]⟩ [1, 0] W htr))
          (broadcastInDim ⟨2, ![A, M]⟩ ![0, 1] h2 (broadcastInDim ⟨2, ![1, M]⟩ ![1] h1 b)))
        (broadcastInDim ⟨2, ![A, M]⟩ ![] h0 (constant (F := Ideal) ⟨0, ![]⟩ .f32 0x00000000#32))
      = layer X₁ X₂
          (transpose ⟨2, ![K₁, M]⟩ [1, 0] (extractStridedSlice ⟨2, ![M, K₁]⟩ ![0, 0] W hs₁) ht₁)
          (transpose ⟨2, ![K₂, M]⟩ [1, 0] (extractStridedSlice ⟨2, ![M, K₂]⟩ ![0, K₁] W hs₂) ht₂) b := by
  funext i
  obtain ⟨p, q, rfl⟩ : ∃ (p : Fin A) (q : Fin M), i = ix2 p q := ⟨i 0, i 1, eq_ix2 i⟩
  exact host_apply prec sched X₁ X₂ W b hcat htr hs₁ ht₁ hs₂ ht₂ h1 h2 h0 p q

end Idealize.ShloMosaic.SplitLayer
-- ==== Proof.LibSplitDot.lean ====
/-
  Three readings of host operations over the extended reals, at an output index given by coordinates.
  `split_dot`: rows that come in two parts `X₁` (`K₁` columns) and `X₂` (`K₂` columns), laid side by side and multiplied in ONE
  `dot_general` by the transpose of a matrix `W` with one row per output feature and `K₁ + K₂` columns, give at `(p, q)`
    Σ_{k < K₁} X₁(p,k)·W(q,k) + Σ_{k < K₂} X₂(p,k)·W(q,K₁+k):
  a sum over `Fin (K₁ + K₂)` is the sum over its first `K₁` positions plus the sum over the remaining `K₂`, in any commutative
  additive monoid, so nothing is asked of the entries.
  `dot_transposed`: rows multiplied by the transpose of `W` give `Σ_k X(p,k)·W(q,k)`.
  `sigmoid_host`: the logistic function spelt as `1 / (1 + exp (−x))` in the host's operations, with the f32 word of 1.0 for
  both ones, is `Ideal.logistic x` on every extended real (the quotient's and the exponential's conventions at ±∞ are the
  definition's own).
-/
import Idealize.ShloMosaic.PureOps.Ideal.Laws
import Idealize.ShloMosaic.Lib.ValueIdx
import Idealize.ShloMosaic.Lib.IdealHost
import proofs.«170209_j60610578481387_2_alg».proof.Proof.LibPlainDot
import proofs.«170209_j60610578481387_2_alg».proof.Proof.LibSplitLayer

namespace Idealize.ShloMosaic.SplitDot

open Idealize.ShloMosaic.ValueIdx

variable {A K₁ K₂ K M : Nat}

/-- Rows in two parts, side by side, against a transposed weight matrix: the two partial sums. -/
theorem split_dot (prec : Option ContractPrecision) (sched : HostSchedule)
    (X₁ : FVec Ideal ⟨2, ![A, K₁]⟩ .f32) (X₂ : FVec Ideal ⟨2, ![A, K₂]⟩ .f32) (W : FVec Ideal ⟨2, ![M, K₁ + K₂]⟩ .f32)
    (hcat : Shape.Concatenates [(⟨2, ![A, K₁]⟩ : Shape), ⟨2, ![A, K₂]⟩] ⟨2, ![A, K₁ + K₂]⟩ 1)
    (htr : (⟨2, ![M, K₁ + K₂]⟩ : Shape).Transposes [1, 0] ⟨2, ![K₁ + K₂, M]⟩) (p : Fin A) (q : Fin M) :
    FloatOps.dotGeneral (DotDims.plain A (K₁ + K₂) M) prec sched
        (concatenate ⟨2, ![A, K₁ + K₂]⟩ 1 [⟨⟨2, ![A, K₁]⟩, X₁⟩, ⟨⟨2, ![A, K₂]⟩, X₂⟩] hcat)
        (transpose ⟨2, ![K₁ + K₂, M]⟩ [1, 0] W htr) (ix2 p q)
      = (∑ k : Fin K₁, X₁ (ix2 p k) * W (ix2 q (Fin.castAdd K₂ k))) + (∑ k : Fin K₂, X₂ (ix2 p k) * W (ix2 q (Fin.natAdd K₁ k))) := by
  refine (PlainDot.dotGeneral_apply_ix2 prec sched _ _ p q).trans ?_
  rw [Fin.sum_univ_add]
  refine congrArg₂ (· + ·) (Finset.sum_congr rfl fun k _ => ?_) (Finset.sum_congr rfl fun k _ => ?_)
  · exact congrArg₂ (· * ·) (SplitLayer.concat_cols_left X₁ X₂ hcat p k) (SplitLayer.transpose_ix2 W htr (Fin.castAdd K₂ k) q)
  · exact congrArg₂ (· * ·) (SplitLayer.concat_cols_right X₁ X₂ hcat p k) (SplitLayer.transpose_ix2 W htr (Fin.natAdd K₁ k) q)

/-- Rows against a transposed weight matrix: the matrix read row by row. -/
theorem dot_transposed (prec : Option ContractPrecision) (sched : HostSchedule)
    (X : FVec Ideal ⟨2, ![A, K]⟩ .f32) (W : FVec Ideal ⟨2, ![M, K]⟩ .f32)
    (htr : (⟨2, ![M, K]⟩ : Shape).Transposes [1, 0] ⟨2, ![K, M]⟩) (p : Fin A) (q : Fin M) :
    FloatOps.dotGeneral (DotDims.plain A K M) prec sched X (transpose ⟨2, ![K, M]⟩ [1, 0] W htr) (ix2 p q)
      = ∑ k : Fin K, X (ix2 p k) * W (ix2 q k) :=
  (PlainDot.dotGeneral_apply_ix2 prec sched _ _ p q).trans
    (Finset.sum_congr rfl fun k _ => congrArg (X (ix2 p k) * ·) (SplitLayer.transpose_ix2 W htr k q))

/-- The host's `1 / (1 + exp (−x))` with the f32 word of 1.0 is the logistic function. -/
theorem sigmoid_host (x : EReal) :
    FloatOps.hostDivf (F := Ideal) (φ := .f32) (FloatOps.ofBits .f32 0x3F800000#32)
        (FloatOps.addf (FloatOps.ofBits .f32 0x3F800000#32) (FloatOps.hostUnary .exp (FloatOps.hostNegf x)))
      = Ideal.logistic x := by
  rw [Ideal.ofBits_def, Ideal.ofBits_one_f32]
  rfl

end Idealize.ShloMosaic.SplitDot
-- ==== Proof.LibDenseRows.lean ====
/-
  One dense layer on the rows of a matrix, over the extended reals, read entry by entry. The weights are kept as they are
  given, one ROW per output feature, so entry `(p, q)` of `X · Wᵀ` is row `p` of `X` against row `q` of `W`,
    rowDot X W p q = Σ_k X(p,k) · W(q,k).
  A kernel body spells it as a product on the matrix unit into a zero accumulator, by the transpose of the weights rounded to
  bf16 (a change of float format is the identity on the extended reals); the host as a `dot_general` by the transposed
  weights. A bias `[M]` reaches entry `(p, q)` as its entry `q` in both spellings, and the zero the rectifier compares with
  is the same extended real in both.
-/
import Idealize.ShloMosaic.PureOps.Ideal.Laws
import Idealize.ShloMosaic.Lib.ValueIdx
import Idealize.ShloMosaic.Lib.ValueLayout
import Idealize.ShloMosaic.Lib.Pipeline.Value
import proofs.«170209_j60610578481387_2_alg».proof.Proof.LibPlainDot
import proofs.«170209_j60610578481387_2_alg».proof.Proof.LibAffine
import proofs.«170209_j60610578481387_2_alg».proof.Proof.LibSplitLayer
import proofs.«170209_j60610578481387_2_alg».proof.Proof.LibSplitDot

namespace Idealize.ShloMosaic.DenseRows

open Idealize.ShloMosaic Idealize.ShloMosaic.ValueIdx

variable {A B K M : Nat}

/-- Row `p` of `X` against row `q` of `W`. -/
noncomputable def rowDot (X : FVec Ideal ⟨2, ![A, K]⟩ .f32) (W : FVec Ideal ⟨2, ![M, K]⟩ .f32) (p : Fin A) (q : Fin M) : EReal :=
  ∑ k : Fin K, X (ix2 p k) * W (ix2 q k)

/-- It reads row `p` of `X` and nothing else of `X`. -/
theorem rowDot_congr (X : FVec Ideal ⟨2, ![A, K]⟩ .f32) (X' : FVec Ideal ⟨2, ![B, K]⟩ .f32) (W : FVec Ideal ⟨2, ![M, K]⟩ .f32)
    (p : Fin A) (p' : Fin B) (q : Fin M) (h : ∀ k, X (ix2 p k) = X' (ix2 p' k)) : rowDot X W p q = rowDot X' W p' q :=
  Finset.sum_congr rfl fun k _ => congrArg (· * W (ix2 q k)) (h k)

/-- The same rows against two weight matrices whose row `q` agree. -/
theorem rowDot_congr_right (X : FVec Ideal ⟨2, ![A, K]⟩ .f32) (W W' : FVec Ideal ⟨2, ![M, K]⟩ .f32)
    (p : Fin A) (q : Fin M) (h : ∀ k, W (ix2 q k) = W' (ix2 q k)) : rowDot X W p q = rowDot X W' p q :=
  Finset.sum_congr rfl fun k _ => congrArg (X (ix2 p k) * ·) (h k)

/-- A kernel body's product into the zero accumulator by the transposed, rounded weights. -/
theorem kernel_rowDot {φ : FTy} (prec : Option ContractPrecision) (X : FVec Ideal ⟨2, ![A, K]⟩ φ) (W : FVec Ideal ⟨2, ![M, K]⟩ .f32)
    (ht : FTy.bf16.bits < FTy.f32.bits) (hT : (⟨2, ![M, K]⟩ : Shape).Transposes [1, 0] ⟨2, ![K, M]⟩) (p : Fin A) (q : Fin M) :
    matmul (DotDims.plain A K M) prec X (transpose ⟨2, ![K, M]⟩ [1, 0] (truncf .bf16 W ht) hT) (constant ⟨2, ![A, M]⟩ .f32 0x00000000#32) (ix2 p q)
      = rowDot X W p q :=
  (PlainDot.matmul_apply_ix2 prec X _ p q).trans
    (Finset.sum_congr rfl fun k _ => congrArg (X (ix2 p k) * ·) (SplitLayer.transpose_ix2 (truncf .bf16 W ht) hT k q))

/-- The host's `dot_general` by the transposed weights. -/
theorem host_rowDot (prec : Option ContractPrecision) (X : FVec Ideal ⟨2, ![A, K]⟩ .f32) (W : FVec Ideal ⟨2, ![M, K]⟩ .f32)
    (hT : (⟨2, ![M, K]⟩ : Shape).Transposes [1, 0] ⟨2, ![K, M]⟩) (p : Fin A) (q : Fin M) :
    Host.dotGeneral (DotDims.plain A K M) prec X (transpose ⟨2, ![K, M]⟩ [1, 0] W hT) (ix2 p q) = rowDot X W p q :=
  SplitDot.dot_transposed prec HostSchedule.single X W hT p q

/-- A kernel body's bias: the vector `[M]` recast to a row and repeated down the block. -/
theorem kernel_bias (b : FVec Ideal ⟨1, ![M]⟩ .f32) (hc : (⟨1, ![M]⟩ : Shape).ShapeCasts ⟨2, ![1, M]⟩)
    (hb : (⟨2, ![1, M]⟩ : Shape).Broadcasts ⟨2, ![A, M]⟩) (p : Fin A) (q : Fin M) :
    broadcastTo ⟨2, ![A, M]⟩ (shapeCast ⟨2, ![1, M]⟩ b hc) hb (ix2 p q) = b (ix1 q) :=
  (broadcastTo_1b_ab_apply _ hb p q).trans (shapeCast_a_1a_apply b hc 0 q)

/-- The host's bias: the vector lifted to `[1, M]` and then to `[A, M]`. -/
theorem host_bias (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) :=
  Affine.bias_rows_apply b h1 h2 p q

/-- The host's zero array, at any entry: the zero of the format. -/
theorem host_zero (h0 : (⟨0, ![]⟩ : Shape).BroadcastsInDim ⟨2, ![A, M]⟩ ![]) (p : Fin A) (q : Fin M) :
    broadcastInDim ⟨2, ![A, M]⟩ ![] h0 (constant (F := Ideal) ⟨0, ![]⟩ .f32 0x00000000#32) (ix2 p q) = Ideal.ofBits .f32 0x00000000#32 :=
  broadcastInDim_apply _ h0 _ (ix2 p q) ix0 fun a => a.elim0

/-- A range of columns of a matrix starting at column `o`, read at `(q, k)`: the matrix at `(q, o + k)`. -/
theorem slice_cols_ix2 {R C C' : Nat} (o : Nat) (W : FVec Ideal ⟨2, ![R, C]⟩ .f32)
    (hs : (⟨2, ![R, C]⟩ : Shape).Slices ![0, o] ⟨2, ![R, C']⟩) (q : Fin R) (k : Fin C') (hk : o + k.val < C) :
    extractStridedSlice ⟨2, ![R, C']⟩ ![0, o] W hs (ix2 q k) = W (ix2 q ⟨o + k.val, hk⟩) :=
  extractStridedSlice_apply ![0, o] W hs (ix2 q k) (ix2 q ⟨o + k.val, hk⟩) fun a =>
    match a with
    | ⟨0, _⟩ => (Nat.zero_add _).symm
    | ⟨1, _⟩ => rfl

end Idealize.ShloMosaic.DenseRows
-- ==== Proof.EdgeMessage.lean ====
/-
  The message of one edge of a bipartite graph. With `gl`, `gr` the feature rows of the edge's left and right node
  (16 numbers each), `ef` the edge's own feature (1 number) and the weights kept one row per output feature,
    hidden(e, j) = max (((gl(e)·Wl(j) + bl(j)) + ef(e)·We(j)) + gr(e)·Wr(j)) 0,
    msg(e, j)    = hidden(e)·Wf(j) + bf(j),
  where `x·W(j)` is the sum over the columns of row `j` of `W`. Entry `(e, j)` reads row `e` of the three row arrays and
  nothing else of them, so a block of edges computed by itself is that block of the whole array's messages.
  The kernel body (products on the matrix unit into zero accumulators by in-body transposes of weights rounded to bf16, bias
  vectors recast to rows and repeated, maximum with a splat zero) and the host (dot_generals by transposed weights, biases
  lifted twice, maximum with a broadcast zero) both compute it; nothing here needs an entry to be finite.
-/
import proofs.«170209_j60610578481387_2_alg».proof.Proof.LibDenseRows

namespace Cert.EdgeMessage

open Idealize.ShloMosaic Idealize.ShloMosaic.ValueIdx Idealize.ShloMosaic.DenseRows

variable {A B : Nat}

/-- The rectified pre-activation of every edge. -/
noncomputable def hidden (XL : FVec Ideal ⟨2, ![A, 16]⟩ .f32) (XE : FVec Ideal ⟨2, ![A, 1]⟩ .f32) (XR : FVec Ideal ⟨2, ![A, 16]⟩ .f32)
    (Wl : FVec Ideal ⟨2, ![16, 16]⟩ .f32) (bl : FVec Ideal ⟨1, ![16]⟩ .f32) (We : FVec Ideal ⟨2, ![16, 1]⟩ .f32)
    (Wr : FVec Ideal ⟨2, ![16, 16]⟩ .f32) : FVec Ideal ⟨2, ![A, 16]⟩ .f32 :=
  fun i => max (((rowDot XL Wl ⟨(i 0).val, idx2_lt0 i⟩ ⟨(i 1).val, idx2_lt1 i⟩ + bl (ix1 ⟨(i 1).val, idx2_lt1 i⟩))
      + rowDot XE We ⟨(i 0).val, idx2_lt0 i⟩ ⟨(i 1).val, idx2_lt1 i⟩)
      + rowDot XR Wr ⟨(i 0).val, idx2_lt0 i⟩ ⟨(i 1).val, idx2_lt1 i⟩) (Ideal.ofBits .f32 0x00000000#32)

theorem hidden_ix2 (XL : FVec Ideal ⟨2, ![A, 16]⟩ .f32) (XE : FVec Ideal ⟨2, ![A, 1]⟩ .f32) (XR : FVec Ideal ⟨2, ![A, 16]⟩ .f32)
    (Wl : FVec Ideal ⟨2, ![16, 16]⟩ .f32) (bl : FVec Ideal ⟨1, ![16]⟩ .f32) (We : FVec Ideal ⟨2, ![16, 1]⟩ .f32)
    (Wr : FVec Ideal ⟨2, ![16, 16]⟩ .f32) (p : Fin A) (q : Fin 16) :
    hidden XL XE XR Wl bl We Wr (ix2 p q)
      = max (((rowDot XL Wl p q + bl (ix1 q)) + rowDot XE We p q) + rowDot XR Wr p q) (Ideal.ofBits .f32 0x00000000#32) := rfl

/-- The message of every edge. -/
noncomputable def msg (XL : FVec Ideal ⟨2, ![A, 16]⟩ .f32) (XE : FVec Ideal ⟨2, ![A, 1]⟩ .f32) (XR : FVec Ideal ⟨2, ![A, 16]⟩ .f32)
    (Wl : FVec Ideal ⟨2, ![16, 16]⟩ .f32) (bl : FVec Ideal ⟨1, ![16]⟩ .f32) (We : FVec Ideal ⟨2, ![16, 1]⟩ .f32)
    (Wr Wf : FVec Ideal ⟨2, ![16, 16]⟩ .f32) (bf : FVec Ideal ⟨1, ![16]⟩ .f32) : FVec Ideal ⟨2, ![A, 16]⟩ .f32 :=
  fun i => rowDot (hidden XL XE XR Wl bl We Wr) Wf ⟨(i 0).val, idx2_lt0 i⟩ ⟨(i 1).val, idx2_lt1 i⟩ + bf (ix1 ⟨(i 1).val, idx2_lt1 i⟩)

theorem msg_ix2 (XL : FVec Ideal ⟨2, ![A, 16]⟩ .f32) (XE : FVec Ideal ⟨2, ![A, 1]⟩ .f32) (XR : FVec Ideal ⟨2, ![A, 16]⟩ .f32)
    (Wl : FVec Ideal ⟨2, ![16, 16]⟩ .f32) (bl : FVec Ideal ⟨1, ![16]⟩ .f32) (We : FVec Ideal ⟨2, ![16, 1]⟩ .f32)
    (Wr Wf : FVec Ideal ⟨2, ![16, 16]⟩ .f32) (bf : FVec Ideal ⟨1, ![16]⟩ .f32) (p : Fin A) (q : Fin 16) :
    msg XL XE XR Wl bl We Wr Wf bf (ix2 p q) = rowDot (hidden XL XE XR Wl bl We Wr) Wf p q + bf (ix1 q) := rfl

/-- An edge's message reads that edge's rows only: edge `p` of a block is edge `r` of the whole arrays when their rows agree. -/
theorem msg_rows (gl : FVec Ideal ⟨2, ![B, 16]⟩ .f32) (ef : FVec Ideal ⟨2, ![B, 1]⟩ .f32) (gr : FVec Ideal ⟨2, ![B, 16]⟩ .f32)
    (XL : FVec Ideal ⟨2, ![A, 16]⟩ .f32) (XE : FVec Ideal ⟨2, ![A, 1]⟩ .f32) (XR : FVec Ideal ⟨2, ![A, 16]⟩ .f32)
    (Wl : FVec Ideal ⟨2, ![16, 16]⟩ .f32) (bl : FVec Ideal ⟨1, ![16]⟩ .f32) (We : FVec Ideal ⟨2, ![16, 1]⟩ .f32)
    (Wr Wf : FVec Ideal ⟨2, ![16, 16]⟩ .f32) (bf : FVec Ideal ⟨1, ![16]⟩ .f32) (p : Fin B) (r : Fin A) (q : Fin 16)
    (h₁ : ∀ k, gl (ix2 p k) = XL (ix2 r k)) (h₂ : ∀ k, ef (ix2 p k) = XE (ix2 r k)) (h₃ : ∀ k, gr (ix2 p k) = XR (ix2 r k)) :
    msg gl ef gr Wl bl We Wr Wf bf (ix2 p q) = msg XL XE XR Wl bl We Wr Wf bf (ix2 r q) := by
  rw [msg_ix2, msg_ix2]
  refine congrArg (· + bf (ix1 q)) (rowDot_congr _ _ Wf p r q fun k => ?_)
  rw [hidden_ix2, hidden_ix2, rowDot_congr gl XL Wl p r k h₁, rowDot_congr ef XE We p r k h₂, rowDot_congr gr XR Wr p r k h₃]

/-- The kernel body on a block of edges, entry by entry. -/
theorem body_apply (prec : Option ContractPrecision)
    (x0 : FVec Ideal ⟨2, ![A, 16]⟩ .bf16) (x1 : FVec Ideal ⟨2, ![A, 1]⟩ .bf16) (x2 : FVec Ideal ⟨2, ![A, 16]⟩ .bf16)
    (Wl : FVec Ideal ⟨2, ![16, 16]⟩ .f32) (We : FVec Ideal ⟨2, ![16, 1]⟩ .f32) (Wr Wf : FVec Ideal ⟨2, ![16, 16]⟩ .f32)
    (bl bf : FVec Ideal ⟨1, ![16]⟩ .f32) (ht : FTy.bf16.bits < FTy.f32.bits)
    (hs0 : (⟨2, ![A, 16]⟩ : Shape).ShapeCasts ⟨2, ![A, 16]⟩) (hs1 : (⟨2, ![A, 1]⟩ : Shape).ShapeCasts ⟨2, ![A, 1]⟩)
    (hT : (⟨2, ![16, 16]⟩ : Shape).Transposes [1, 0] ⟨2, ![16, 16]⟩)
    (hT1 : (⟨2, ![16, 1]⟩ : Shape).Transposes [1, 0] ⟨2, ![1, 16]⟩)
    (hc : (⟨1, ![16]⟩ : Shape).ShapeCasts ⟨2, ![1, 16]⟩)
    (hb : (⟨2, ![1, 16]⟩ : Shape).Broadcasts ⟨2, ![A, 16]⟩) (p : Fin A) (q : Fin 16) :
    addf (matmul (DotDims.plain A 16 16) prec
          (truncf .bf16 (maximumf (addf (addf (addf
              (matmul (DotDims.plain A 16 16) prec (shapeCast ⟨2, ![A, 16]⟩ x0 hs0)
                (transpose ⟨2, ![16, 16]⟩ [1, 0] (truncf .bf16 Wl ht) hT) (constant ⟨2, ![A, 16]⟩ .f32 0x00000000#32))
              (broadcastTo ⟨2, ![A, 16]⟩ (shapeCast ⟨2, ![1, 16]⟩ bl hc) hb))
              (matmul (DotDims.plain A 1 16) prec (shapeCast ⟨2, ![A, 1]⟩ x1 hs1)
                (transpose ⟨2, ![1, 16]⟩ [1, 0] (truncf .bf16 We ht) hT1) (constant ⟨2, ![A, 16]⟩ .f32 0x00000000#32)))
              (matmul (DotDims.plain A 16 16) prec (shapeCast ⟨2, ![A, 16]⟩ x2 hs0)
                (transpose ⟨2, ![16, 16]⟩ [1, 0] (truncf .bf16 Wr ht) hT) (constant ⟨2, ![A, 16]⟩ .f32 0x00000000#32)))
            (broadcast ⟨2, ![A, 16]⟩ (Scalar.ofBits (F := Ideal) .f32 0x00000000#32))) ht)
          (transpose ⟨2, ![16, 16]⟩ [1, 0] (truncf .bf16 Wf ht) hT) (constant ⟨2, ![A, 16]⟩ .f32 0x00000000#32))
        (broadcastTo ⟨2, ![A, 16]⟩ (shapeCast ⟨2, ![1, 16]⟩ bf hc) hb) (ix2 p q)
      = msg x0 x1 x2 Wl bl We Wr Wf bf (ix2 p q) := by
  rw [msg_ix2]
  refine (addf_apply _ _ _).trans (congrArg₂ (· + ·) ?_ (kernel_bias bf hc hb p q))
  refine (kernel_rowDot prec _ Wf ht hT p q).trans (rowDot_congr _ _ Wf p p q fun k => ?_)
  rw [hidden_ix2]
  refine (truncf_apply _ ht _).trans ?_
  refine (maximumf_apply _ _ _).trans (congrArg₂ max ?_ rfl)
  refine (addf_apply _ _ _).trans (congrArg₂ (· + ·) ?_ ?_)
  · refine (addf_apply _ _ _).trans (congrArg₂ (· + ·) ?_ ?_)
    · refine (addf_apply _ _ _).trans (congrArg₂ (· + ·) ?_ (kernel_bias bl hc hb p k))
      rw [shapeCast_self]
      exact kernel_rowDot prec x0 Wl ht hT p k
    · rw [shapeCast_self]
      exact kernel_rowDot prec x1 We ht hT1 p k
  · rw [shapeCast_self]
    exact kernel_rowDot prec x2 Wr ht hT p k

/-- The host's operations on whole arrays of edges: the same array. -/
theorem host_eq (prec : Option ContractPrecision)
    (XL : FVec Ideal ⟨2, ![A, 16]⟩ .f32) (XE : FVec Ideal ⟨2, ![A, 1]⟩ .f32) (XR : FVec Ideal ⟨2, ![A, 16]⟩ .f32)
    (Wl : FVec Ideal ⟨2, ![16, 16]⟩ .f32) (bl : FVec Ideal ⟨1, ![16]⟩ .f32) (We : FVec Ideal ⟨2, ![16, 1]⟩ .f32)
    (Wr Wf : FVec Ideal ⟨2, ![16, 16]⟩ .f32) (bf : FVec Ideal ⟨1, ![16]⟩ .f32)
    (hT : (⟨2, ![16, 16]⟩ : Shape).Transposes [1, 0] ⟨2, ![16, 16]⟩)
    (hT1 : (⟨2, ![16, 1]⟩ : Shape).Transposes [1, 0] ⟨2, ![1, 16]⟩)
    (h1 : (⟨1, ![16]⟩ : Shape).BroadcastsInDim ⟨2, ![1, 16]⟩ ![1])
    (h2 : (⟨2, ![1, 16]⟩ : Shape).BroadcastsInDim ⟨2, ![A, 16]⟩ ![0, 1])
    (h0 : (⟨0, ![]⟩ : Shape).BroadcastsInDim ⟨2, ![A, 16]⟩ ![]) :
    addf (Host.dotGeneral (DotDims.plain A 16 16) prec
          (maximumf (addf (addf (addf
              (Host.dotGeneral (DotDims.plain A 16 16) prec XL (transpose ⟨2, ![16, 16]⟩ [1, 0] Wl hT))
              (broadcastInDim ⟨2, ![A, 16]⟩ ![0, 1] h2 (broadcastInDim ⟨2, ![1, 16]⟩ ![1] h1 bl)))
              (Host.dotGeneral (DotDims.plain A 1 16) prec XE (transpose ⟨2, ![1, 16]⟩ [1, 0] We hT1)))
              (Host.dotGeneral (DotDims.plain A 16 16) prec XR (transpose ⟨2, ![16, 16]⟩ [1, 0] Wr hT)))
            (broadcastInDim ⟨2, ![A, 16]⟩ ![] h0 (constant (F := Ideal) ⟨0, ![]⟩ .f32 0x00000000#32)))
          (transpose ⟨2, ![16, 16]⟩ [1, 0] Wf hT))
        (broadcastInDim ⟨2, ![A, 16]⟩ ![0, 1] h2 (broadcastInDim ⟨2, ![1, 16]⟩ ![1] h1 bf))
      = msg XL XE XR Wl bl We Wr Wf bf := by
  funext i
  obtain ⟨p, q, rfl⟩ : ∃ (p : Fin A) (q : Fin 16), i = ix2 p q := ⟨i 0, i 1, eq_ix2 i⟩
  rw [msg_ix2]
  refine (addf_apply _ _ _).trans (congrArg₂ (· + ·) ?_ (host_bias bf h1 h2 p q))
  refine (host_rowDot prec _ Wf hT p q).trans (rowDot_congr _ _ Wf p p q fun k => ?_)
  rw [hidden_ix2]
  refine (maximumf_apply _ _ _).trans (congrArg₂ max ?_ (host_zero h0 p k))
  refine (addf_apply _ _ _).trans (congrArg₂ (· + ·) ?_ (host_rowDot prec XR Wr hT p k))
  refine (addf_apply _ _ _).trans (congrArg₂ (· + ·) ?_ (host_rowDot prec XE We hT1 p k))
  exact (addf_apply _ _ _).trans (congrArg₂ (· + ·) (host_rowDot prec XL Wl hT p k) (host_bias bl h1 h2 p k))

end Cert.EdgeMessage
-- ==== Proof.EdgeRegion.lean ====
/-
  The first kernel region, read as a value. The region runs the edge-message body on a grid of 500 points; point `t` is
  handed rows `8000·t … 8000·t + 7999` of the two gathered feature arrays and of the edge features, the six weight and bias
  arrays whole, and writes rows `8000·t … 8000·t + 7999` of the result. An edge's message reads that edge's rows only, so
  what point `t` writes is block `t` of the messages of the whole arrays; the 500 blocks tile the 4,000,000 rows (row `r`
  lies in block `r / 8000`), so after the region the result array IS the array of messages, whatever the arrays held
  when the region was entered.
-/
import proofs.«170209_j60610578481387_2_alg».proof.Proof.Gen.KernelIdeal.Frame
import proofs.«170209_j60610578481387_2_alg».proof.Proof.EdgeMessage
import Idealize.ShloMosaic.Lib.Pipeline.Value

set_option maxRecDepth 16384

noncomputable section

namespace Cert.KernelIdeal.EdgeRegion

open Idealize.ShloMosaic Idealize.ShloMosaic.TcCoe Idealize.SL.Sem Idealize.ShloMosaic.ValueIdx
open Idealize.ShloMosaic.Pipeline (Dat Cfg Window)
open Cert.KernelIdeal Cert.KernelIdeal.Gen

theorem hz : (![0, 0] : Fin 2 → Nat) = fun _ => 0 := funext fun a => by fin_cases a <;> rfl
theorem hz1 : (![0] : Fin 1 → Nat) = fun _ => 0 := funext fun a => by fin_cases a <;> rfl

/-- The printed index maps, decided over the grid: the three row arrays and the result move down one block of rows per
    point; every weight and bias array is handed whole at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- One entry of the body's result on a block, against the messages of whole arrays: equal when the block's row is the
    array's row and the weights are the same. -/
theorem block_entry (x0 : Vec Ideal S8000x16 .bf16) (x1 : Vec Ideal S8000x1 .bf16) (x2 : Vec Ideal S8000x16 .bf16)
    (x3 : Vec Ideal S16x16 .f32) (x4 : Vec Ideal S16 .f32) (x5 : Vec Ideal S16x1 .f32) (x6 x7 : Vec Ideal S16x16 .f32)
    (x8 : Vec Ideal S16 .f32)
    (XL : S4000000x16.Idx → EReal) (XE : S4000000x1.Idx → EReal) (XR : S4000000x16.Idx → EReal)
    (Wl : S16x16.Idx → EReal) (bl : S16.Idx → EReal) (We : S16x1.Idx → EReal) (Wr Wf : S16x16.Idx → EReal) (bf : S16.Idx → EReal)
    (y : S8000x16.Idx) (i : S4000000x16.Idx) (hcol : (i 1).val = (y 1).val)
    (h0 : ∀ k : Fin 16, x0 (ix2 ⟨(y 0).val, idx2_lt0 y⟩ k) = XL (ix2 ⟨(i 0).val, idx2_lt0 i⟩ k))
    (h1 : ∀ k : Fin 1, x1 (ix2 ⟨(y 0).val, idx2_lt0 y⟩ k) = XE (ix2 ⟨(i 0).val, idx2_lt0 i⟩ k))
    (h2 : ∀ k : Fin 16, x2 (ix2 ⟨(y 0).val, idx2_lt0 y⟩ k) = XR (ix2 ⟨(i 0).val, idx2_lt0 i⟩ k))
    (h3 : x3 = Wl) (h4 : x4 = bl) (h5 : x5 = We) (h6 : x6 = Wr) (h7 : x7 = Wf) (h8 : x8 = bf) :
    k0_pay1 x0 x1 x2 x3 x5 x6 x7 x4 x8 y = EdgeMessage.msg XL XE XR Wl bl We Wr Wf bf i := by
  subst h3 h4 h5 h6 h7 h8
  obtain ⟨p, q, rfl⟩ : ∃ (p : Fin 8000) (q : Fin 16), y = ix2 p q := ⟨y 0, y 1, eq_ix2 y⟩
  obtain ⟨r, q', rfl⟩ : ∃ (r : Fin 4000000) (q' : Fin 16), i = ix2 r q' := ⟨i 0, i 1, eq_ix2 i⟩
  obtain rfl : q' = q := Fin.ext hcol
  exact (EdgeMessage.body_apply none x0 x1 x2 x3 x5 x6 x7 x4 x8 bitsLt_bf16_f32 shapeCasts_S8000x16_S8000x16
      shapeCasts_S8000x1_S8000x1 transposes_S16x16_p1_0_S16x16 transposes_S16x1_p1_0_S1x16 shapeCasts_S16_S1x16
      broadcasts_S1x16_S8000x16 p q').trans
    (EdgeMessage.msg_rows x0 x1 x2 XL XE XR x3 x4 x5 x6 x7 x8 p r q' h0 h1 h2)

variable (V : (c : Dev nD) → (b : Ref sig .tc) → Buf (Elt Ideal) ((c : Thread nD τ).loc b))

/-- The messages of the arrays the region finds. -/
abbrev messages (c : Dev nD) : S4000000x16.Idx → EReal :=
  EdgeMessage.msg (A := 4000000) (V c main_v13) (V c main_v6) (V c main_v20) (V c main_arg4) (V c main_arg5) (V c main_arg6)
    (V c main_arg7) (V c main_arg8) (V c main_arg9)

/-- What point `t` writes back is block `t` of the messages. -/
theorem flushed_eq (c : Dev nD) (t : Fin cfg0.N) :
    (dat0 V c).flushed 9 t = ((cfg0.win 9).blk t).view.read (Elt Ideal) (messages V c) := by
  show (cfg0.win 9).cut (grid0.coords t) ((dat0 V c).after 9 t) = _
  rw [after0_9]
  unfold out0_9
  rw [View.canon_unit_zero hz]
  simp only [View.ld_unit_zero (S := S8000x16) hz, View.ld_unit_zero (S := S8000x1) hz, View.ld_unit_zero (S := S16x16) hz,
    View.ld_unit_zero (S := S16x1) hz, View.ld_unit_zero (S := S16) hz1]
  obtain ⟨e00, e01, e10, e11, e20, e21, e30, e31, e40, e50, e51, e60, e61, e70, e71, e80, e90, e91⟩ := idx_facts t
  funext j
  refine block_entry (iblk0 V c 0 t) (iblk0 V c 1 t) (iblk0 V c 2 t) (iblk0 V c 3 t) (iblk0 V c 4 t) (iblk0 V c 5 t)
    (iblk0 V c 6 t) (iblk0 V c 7 t) (iblk0 V c 8 t) (V c main_v13) (V c main_v6) (V c main_v20) (V c main_arg4) (V c main_arg5)
    (V c main_arg6) (V c main_arg7) (V c main_arg8) (V c main_arg9) j (((cfg0.win 9).blk t).view.emb j) ?_ ?_ ?_ ?_ ?_ ?_ ?_ ?_ ?_ ?_
  · show win0_9.index t (1 : Fin 2) * 16 + 1 * (j 1).val = (j 1).val
    omega
  · intro k
    show V c main_v13 (((cfg0.win 0).blk t).view.emb (ix2 ⟨(j 0).val, _⟩ k)) = V c main_v13 (ix2 ⟨((((cfg0.win 9).blk t).view.emb j) 0).val, _⟩ k)
    refine congrArg (V c main_v13) (funext fun a => Fin.ext ?_)
    match a with
    | ⟨0, _⟩ => show win0_0.index t (0 : Fin 2) * 8000 + 1 * (j 0).val = win0_9.index t (0 : Fin 2) * 8000 + 1 * (j 0).val; omega
    | ⟨1, _⟩ => show win0_0.index t (1 : Fin 2) * 16 + 1 * k.val = k.val; omega
  · intro k
    show V c main_v6 (((cfg0.win 1).blk t).view.emb (ix2 ⟨(j 0).val, _⟩ k)) = V c main_v6 (ix2 ⟨((((cfg0.win 9).blk t).view.emb j) 0).val, _⟩ k)
    refine congrArg (V c main_v6) (funext fun a => Fin.ext ?_)
    match a with
    | ⟨0, _⟩ => show win0_1.index t (0 : Fin 2) * 8000 + 1 * (j 0).val = win0_9.index t (0 : Fin 2) * 8000 + 1 * (j 0).val; omega
    | ⟨1, _⟩ => show win0_1.index t (1 : Fin 2) * 1 + 1 * k.val = k.val; omega
  · intro k
    show V c main_v20 (((cfg0.win 2).blk t).view.emb (ix2 ⟨(j 0).val, _⟩ k)) = V c main_v20 (ix2 ⟨((((cfg0.win 9).blk t).view.emb j) 0).val, _⟩ k)
    refine congrArg (V c main_v20) (funext fun a => Fin.ext ?_)
    match a with
    | ⟨0, _⟩ => show win0_2.index t (0 : Fin 2) * 8000 + 1 * (j 0).val = win0_9.index t (0 : Fin 2) * 8000 + 1 * (j 0).val; omega
    | ⟨1, _⟩ => show win0_2.index t (1 : Fin 2) * 16 + 1 * k.val = k.val; omega
  · funext y
    show V c main_arg4 (((cfg0.win 3).blk t).view.emb y) = V c main_arg4 y
    refine congrArg (V c main_arg4) (funext fun a => Fin.ext ?_)
    match a with
    | ⟨0, _⟩ => show win0_3.index t (0 : Fin 2) * 16 + 1 * (y 0).val = (y 0).val; omega
    | ⟨1, _⟩ => show win0_3.index t (1 : Fin 2) * 16 + 1 * (y 1).val = (y 1).val; omega
  · funext y
    show V c main_arg5 (((cfg0.win 4).blk t).view.emb y) = V c main_arg5 y
    refine congrArg (V c main_arg5) (funext fun a => Fin.ext ?_)
    match a with
    | ⟨0, _⟩ => show win0_4.index t (0 : Fin 1) * 16 + 1 * (y 0).val = (y 0).val; omega
  · funext y
    show V c main_arg6 (((cfg0.win 5).blk t).view.emb y) = V c main_arg6 y
    refine congrArg (V c main_arg6) (funext fun a => Fin.ext ?_)
    match a with
    | ⟨0, _⟩ => show win0_5.index t (0 : Fin 2) * 16 + 1 * (y 0).val = (y 0).val; omega
    | ⟨1, _⟩ => show win0_5.index t (1 : Fin 2) * 1 + 1 * (y 1).val = (y 1).val; omega
  · funext y
    show V c main_arg7 (((cfg0.win 6).blk t).view.emb y) = V c main_arg7 y
    refine congrArg (V c main_arg7) (funext fun a => Fin.ext ?_)
    match a with
    | ⟨0, _⟩ => show win0_6.index t (0 : Fin 2) * 16 + 1 * (y 0).val = (y 0).val; omega
    | ⟨1, _⟩ => show win0_6.index t (1 : Fin 2) * 16 + 1 * (y 1).val = (y 1).val; omega
  · funext y
    show V c main_arg8 (((cfg0.win 7).blk t).view.emb y) = V c main_arg8 y
    refine congrArg (V c main_arg8) (funext fun a => Fin.ext ?_)
    match a with
    | ⟨0, _⟩ => show win0_7.index t (0 : Fin 2) * 16 + 1 * (y 0).val = (y 0).val; omega
    | ⟨1, _⟩ => show win0_7.index t (1 : Fin 2) * 16 + 1 * (y 1).val = (y 1).val; omega
  · funext y
    show V c main_arg9 (((cfg0.win 8).blk t).view.emb y) = V c main_arg9 y
    refine congrArg (V c main_arg9) (funext fun a => Fin.ext ?_)
    match a with
    | ⟨0, _⟩ => show win0_8.index t (0 : Fin 1) * 16 + 1 * (y 0).val = (y 0).val; omega

/-- An index of the result array is in point `t`'s block iff each coordinate is in the block's range on its axis. -/
theorem mem_blk (t : Fin cfg0.N) (i : S4000000x16.Idx) :
    i ∈ ((cfg0.win 9).blk t).view.set ↔ ∀ a : Fin 2, win0_9.index t a * S8000x16.size a ≤ (i a).val ∧ (i a).val < win0_9.index t a * S8000x16.size a + S8000x16.size a := by
  show i ∈ ((View.whole main_v21).slice (win0_9.rect t)).set ↔ _
  rw [View.set_slice_whole, Rect.mem_set_unit]
  exact Iff.rfl

/-- After the region the result array is the array of messages. -/
theorem final (c : Dev nD) : (dat0 V c).arrAt 9 cfg0.N = messages V c :=
  (dat0 V c).arrAt_eq_of_cover 9 (messages V c) (fun t _ => flushed_eq V c t) fun i => by
    have hN : cfg0.N = 500 := N_0
    have hi0 : ((i : S4000000x16.Idx) 0).val < 4000000 := (i 0).isLt
    have hi1 : ((i : S4000000x16.Idx) 1).val < 16 := (i 1).isLt
    have hlt : ((i : S4000000x16.Idx) 0).val / 8000 < cfg0.N := by rw [hN]; omega
    refine ⟨⟨((i : S4000000x16.Idx) 0).val / 8000, hlt⟩, flush0_9 _, ?_⟩
    rw [mem_blk]
    obtain ⟨e00, e01, e10, e11, e20, e21, e30, e31, e40, e50, e51, e60, e61, e70, e71, e80, e90, e91⟩ :=
      idx_facts ⟨((i : S4000000x16.Idx) 0).val / 8000, hlt⟩
    have e90' : win0_9.index ⟨((i : S4000000x16.Idx) 0).val / 8000, hlt⟩ (0 : Fin 2) = ((i : S4000000x16.Idx) 0).val / 8000 := e90
    intro a
    match a with
    | ⟨0, _⟩ =>
      show win0_9.index ⟨((i : S4000000x16.Idx) 0).val / 8000, hlt⟩ (0 : Fin 2) * 8000 ≤ ((i : S4000000x16.Idx) 0).val
        ∧ ((i : S4000000x16.Idx) 0).val < win0_9.index ⟨((i : S4000000x16.Idx) 0).val / 8000, hlt⟩ (0 : Fin 2) * 8000 + 8000
      omega
    | ⟨1, _⟩ =>
      show win0_9.index ⟨((i : S4000000x16.Idx) 0).val / 8000, hlt⟩ (1 : Fin 2) * 16 ≤ ((i : S4000000x16.Idx) 1).val
        ∧ ((i : S4000000x16.Idx) 1).val < win0_9.index ⟨((i : S4000000x16.Idx) 0).val / 8000, hlt⟩ (1 : Fin 2) * 16 + 16
      omega

end Cert.KernelIdeal.EdgeRegion

end
-- ==== Proof.NodeUpdate.lean ====
/-
  The update of one right-hand node from the messages gathered at it. With `agg` the node's summed messages and `rf` its own
  features (16 numbers each), the weights kept one row per output feature and the middle layer's `[16, 32]` matrix given as its
  first 16 columns `W₁ₐ` and its last 16 columns `W₁ᵦ`,
    post(n, j) = max agg(n) 0 · Wpost(j) + bpost(j),
    h(n, j)    = max ((post(n)·W₁ₐ(j) + rf(n)·W₁ᵦ(j)) + b₁(j)) 0,
    out(n, j)  = h(n)·W₂(j) + b₂(j).
  Entry `(n, j)` reads row `n` of `agg` and of `rf` only. The kernel body multiplies the two halves separately and adds the
  products; the host lays `post` and `rf` side by side and multiplies the 32-wide rows by the whole transposed matrix once: a
  sum over 32 positions is the sum over the first 16 plus the sum over the last 16, in any commutative additive monoid, so
  nothing here needs an entry to be finite.
-/
import proofs.«170209_j60610578481387_2_alg».proof.Proof.LibDenseRows

namespace Cert.NodeUpdate

open Idealize.ShloMosaic Idealize.ShloMosaic.ValueIdx Idealize.ShloMosaic.DenseRows

variable {A B : Nat}

/-- The rectifier of an array. -/
noncomputable def relu (X : FVec Ideal ⟨2, ![A, 16]⟩ .f32) : FVec Ideal ⟨2, ![A, 16]⟩ .f32 :=
  fun i => max (X i) (Ideal.ofBits .f32 0x00000000#32)

/-- The first layer, on the rectified sums. -/
noncomputable def post (AGG : FVec Ideal ⟨2, ![A, 16]⟩ .f32) (Wp : FVec Ideal ⟨2, ![16, 16]⟩ .f32) (bp : FVec Ideal ⟨1, ![16]⟩ .f32) :
    FVec Ideal ⟨2, ![A, 16]⟩ .f32 :=
  fun i => rowDot (relu AGG) Wp ⟨(i 0).val, idx2_lt0 i⟩ ⟨(i 1).val, idx2_lt1 i⟩ + bp (ix1 ⟨(i 1).val, idx2_lt1 i⟩)

theorem post_ix2 (AGG : FVec Ideal ⟨2, ![A, 16]⟩ .f32) (Wp : FVec Ideal ⟨2, ![16, 16]⟩ .f32) (bp : FVec Ideal ⟨1, ![16]⟩ .f32)
    (p : Fin A) (q : Fin 16) : post AGG Wp bp (ix2 p q) = rowDot (relu AGG) Wp p q + bp (ix1 q) := rfl

/-- The rectified middle layer, on the first layer's rows and the node's own features. -/
noncomputable def mid (AGG RF : FVec Ideal ⟨2, ![A, 16]⟩ .f32) (Wp : FVec Ideal ⟨2, ![16, 16]⟩ .f32) (bp : FVec Ideal ⟨1, ![16]⟩ .f32)
    (Wa Wb : FVec Ideal ⟨2, ![16, 16]⟩ .f32) (b1 : FVec Ideal ⟨1, ![16]⟩ .f32) : FVec Ideal ⟨2, ![A, 16]⟩ .f32 :=
  fun i => max ((rowDot (post AGG Wp bp) Wa ⟨(i 0).val, idx2_lt0 i⟩ ⟨(i 1).val, idx2_lt1 i⟩
      + rowDot RF Wb ⟨(i 0).val, idx2_lt0 i⟩ ⟨(i 1).val, idx2_lt1 i⟩) + b1 (ix1 ⟨(i 1).val, idx2_lt1 i⟩)) (Ideal.ofBits .f32 0x00000000#32)

theorem mid_ix2 (AGG RF : FVec Ideal ⟨2, ![A, 16]⟩ .f32) (Wp : FVec Ideal ⟨2, ![16, 16]⟩ .f32) (bp : FVec Ideal ⟨1, ![16]⟩ .f32)
    (Wa Wb : FVec Ideal ⟨2, ![16, 16]⟩ .f32) (b1 : FVec Ideal ⟨1, ![16]⟩ .f32) (p : Fin A) (q : Fin 16) :
    mid AGG RF Wp bp Wa Wb b1 (ix2 p q)
      = max ((rowDot (post AGG Wp bp) Wa p q + rowDot RF Wb p q) + b1 (ix1 q)) (Ideal.ofBits .f32 0x00000000#32) := rfl

/-- The node's new features. -/
noncomputable def out (AGG RF : FVec Ideal ⟨2, ![A, 16]⟩ .f32) (Wp : FVec Ideal ⟨2, ![16, 16]⟩ .f32) (bp : FVec Ideal ⟨1, ![16]⟩ .f32)
    (Wa Wb : FVec Ideal ⟨2, ![16, 16]⟩ .f32) (b1 : FVec Ideal ⟨1, ![16]⟩ .f32) (W2 : FVec Ideal ⟨2, ![16, 16]⟩ .f32)
    (b2 : FVec Ideal ⟨1, ![16]⟩ .f32) : FVec Ideal ⟨2, ![A, 16]⟩ .f32 :=
  fun i => rowDot (mid AGG RF Wp bp Wa Wb b1) W2 ⟨(i 0).val, idx2_lt0 i⟩ ⟨(i 1).val, idx2_lt1 i⟩ + b2 (ix1 ⟨(i 1).val, idx2_lt1 i⟩)

theorem out_ix2 (AGG RF : FVec Ideal ⟨2, ![A, 16]⟩ .f32) (Wp : FVec Ideal ⟨2, ![16, 16]⟩ .f32) (bp : FVec Ideal ⟨1, ![16]⟩ .f32)
    (Wa Wb : FVec Ideal ⟨2, ![16, 16]⟩ .f32) (b1 : FVec Ideal ⟨1, ![16]⟩ .f32) (W2 : FVec Ideal ⟨2, ![16, 16]⟩ .f32)
    (b2 : FVec Ideal ⟨1, ![16]⟩ .f32) (p : Fin A) (q : Fin 16) :
    out AGG RF Wp bp Wa Wb b1 W2 b2 (ix2 p q) = rowDot (mid AGG RF Wp bp Wa Wb b1) W2 p q + b2 (ix1 q) := rfl

/-- A node's new features read that node's rows only: node `p` of a block is node `r` of the whole arrays when their rows agree. -/
theorem out_rows (agg rf : FVec Ideal ⟨2, ![B, 16]⟩ .f32) (AGG RF : FVec Ideal ⟨2, ![A, 16]⟩ .f32)
    (Wp : FVec Ideal ⟨2, ![16, 16]⟩ .f32) (bp : FVec Ideal ⟨1, ![16]⟩ .f32)
    (Wa Wb : FVec Ideal ⟨2, ![16, 16]⟩ .f32) (b1 : FVec Ideal ⟨1, ![16]⟩ .f32) (W2 : FVec Ideal ⟨2, ![16, 16]⟩ .f32)
    (b2 : FVec Ideal ⟨1, ![16]⟩ .f32) (p : Fin B) (r : Fin A) (q : Fin 16)
    (h₁ : ∀ k, agg (ix2 p k) = AGG (ix2 r k)) (h₂ : ∀ k, rf (ix2 p k) = RF (ix2 r k)) :
    out agg rf Wp bp Wa Wb b1 W2 b2 (ix2 p q) = out AGG RF Wp bp Wa Wb b1 W2 b2 (ix2 r q) := by
  rw [out_ix2, out_ix2]
  refine congrArg (· + b2 (ix1 q)) (rowDot_congr _ _ W2 p r q fun k => ?_)
  rw [mid_ix2, mid_ix2, rowDot_congr rf RF Wb p r k h₂]
  refine congrArg (fun z => max ((z + rowDot RF Wb r k) + b1 (ix1 k)) (Ideal.ofBits .f32 0x00000000#32)) ?_
  refine rowDot_congr _ _ Wa p r k fun j => ?_
  rw [post_ix2, post_ix2]
  refine congrArg (· + bp (ix1 j)) (rowDot_congr _ _ Wp p r j fun l => ?_)
  show max (agg (ix2 p l)) _ = max (AGG (ix2 r l)) _
  rw [h₁ l]

/-- The kernel body on a block of nodes, entry by entry. -/
theorem body_apply (prec : Option ContractPrecision)
    (x0 x1 : FVec Ideal ⟨2, ![A, 16]⟩ .f32) (Wp : FVec Ideal ⟨2, ![16, 16]⟩ .f32) (bp : FVec Ideal ⟨1, ![16]⟩ .f32)
    (Wa Wb : FVec Ideal ⟨2, ![16, 16]⟩ .f32) (b1 : FVec Ideal ⟨1, ![16]⟩ .f32) (W2 : FVec Ideal ⟨2, ![16, 16]⟩ .f32)
    (b2 : FVec Ideal ⟨1, ![16]⟩ .f32) (ht : FTy.bf16.bits < FTy.f32.bits)
    (hs0 : (⟨2, ![A, 16]⟩ : Shape).ShapeCasts ⟨2, ![A, 16]⟩) (hsw : (⟨2, ![16, 16]⟩ : Shape).ShapeCasts ⟨2, ![16, 16]⟩)
    (hT : (⟨2, ![16, 16]⟩ : Shape).Transposes [1, 0] ⟨2, ![16, 16]⟩)
    (hc : (⟨1, ![16]⟩ : Shape).ShapeCasts ⟨2, ![1, 16]⟩)
    (hb : (⟨2, ![1, 16]⟩ : Shape).Broadcasts ⟨2, ![A, 16]⟩) (p : Fin A) (q : Fin 16) :
    addf (matmul (DotDims.plain A 16 16) prec
          (truncf .bf16 (maximumf (addf (addf
              (matmul (DotDims.plain A 16 16) prec
                (truncf .bf16 (addf
                  (matmul (DotDims.plain A 16 16) prec
                    (truncf .bf16 (maximumf (shapeCast ⟨2, ![A, 16]⟩ x0 hs0) (broadcast ⟨2, ![A, 16]⟩ (Scalar.ofBits (F := Ideal) .f32 0x00000000#32))) ht)
                    (transpose ⟨2, ![16, 16]⟩ [1, 0] (truncf .bf16 Wp ht) hT) (constant ⟨2, ![A, 16]⟩ .f32 0x00000000#32))
                  (broadcastTo ⟨2, ![A, 16]⟩ (shapeCast ⟨2, ![1, 16]⟩ bp hc) hb)) ht)
                (transpose ⟨2, ![16, 16]⟩ [1, 0] (truncf .bf16 (shapeCast ⟨2, ![16, 16]⟩ Wa hsw) ht) hT) (constant ⟨2, ![A, 16]⟩ .f32 0x00000000#32))
              (matmul (DotDims.plain A 16 16) prec (truncf .bf16 x1 ht)
                (transpose ⟨2, ![16, 16]⟩ [1, 0] (truncf .bf16 (shapeCast ⟨2, ![16, 16]⟩ Wb hsw) ht) hT) (constant ⟨2, ![A, 16]⟩ .f32 0x00000000#32)))
              (broadcastTo ⟨2, ![A, 16]⟩ (shapeCast ⟨2, ![1, 16]⟩ b1 hc) hb))
            (broadcast ⟨2, ![A, 16]⟩ (Scalar.ofBits (F := Ideal) .f32 0x00000000#32))) ht)
          (transpose ⟨2, ![16, 16]⟩ [1, 0] (truncf .bf16 W2 ht) hT) (constant ⟨2, ![A, 16]⟩ .f32 0x00000000#32))
        (broadcastTo ⟨2, ![A, 16]⟩ (shapeCast ⟨2, ![1, 16]⟩ b2 hc) hb) (ix2 p q)
      = out x0 x1 Wp bp Wa Wb b1 W2 b2 (ix2 p q) := by
  rw [out_ix2]
  refine (addf_apply _ _ _).trans (congrArg₂ (· + ·) ?_ (kernel_bias b2 hc hb p q))
  refine (kernel_rowDot prec _ W2 ht hT p q).trans (rowDot_congr _ _ W2 p p q fun k => ?_)
  rw [mid_ix2]
  refine (truncf_apply _ ht _).trans ?_
  refine (maximumf_apply _ _ _).trans (congrArg₂ max ?_ rfl)
  refine (addf_apply _ _ _).trans (congrArg₂ (· + ·) ?_ (kernel_bias b1 hc hb p k))
  refine (addf_apply _ _ _).trans (congrArg₂ (· + ·) ?_ ?_)
  · rw [shapeCast_self Wa hsw]
    refine (kernel_rowDot prec _ Wa ht hT p k).trans (rowDot_congr _ _ Wa p p k fun j => ?_)
    rw [post_ix2]
    refine (truncf_apply _ ht _).trans ?_
    refine (addf_apply _ _ _).trans (congrArg₂ (· + ·) ?_ (kernel_bias bp hc hb p j))
    refine (kernel_rowDot prec _ Wp ht hT p j).trans (rowDot_congr _ _ Wp p p j fun l => ?_)
    rw [shapeCast_self x0 hs0]
    exact (truncf_apply _ ht _).trans (maximumf_apply _ _ _)
  · rw [shapeCast_self Wb hsw]
    exact kernel_rowDot prec (truncf .bf16 x1 ht) Wb ht hT p k

/-- The host's operations on whole arrays of nodes: the same array, with the two halves of the middle matrix cut out of it. -/
theorem host_eq (prec : Option ContractPrecision)
    (AGG RF : FVec Ideal ⟨2, ![A, 16]⟩ .f32) (Wp : FVec Ideal ⟨2, ![16, 16]⟩ .f32) (bp : FVec Ideal ⟨1, ![16]⟩ .f32)
    (W1 : FVec Ideal ⟨2, ![16, 16 + 16]⟩ .f32) (b1 : FVec Ideal ⟨1, ![16]⟩ .f32) (W2 : FVec Ideal ⟨2, ![16, 16]⟩ .f32)
    (b2 : FVec Ideal ⟨1, ![16]⟩ .f32)
    (hT : (⟨2, ![16, 16]⟩ : Shape).Transposes [1, 0] ⟨2, ![16, 16]⟩)
    (hT32 : (⟨2, ![16, 16 + 16]⟩ : Shape).Transposes [1, 0] ⟨2, ![16 + 16, 16]⟩)
    (hcat : Shape.Concatenates [(⟨2, ![A, 16]⟩ : Shape), ⟨2, ![A, 16]⟩] ⟨2, ![A, 16 + 16]⟩ 1)
    (hsa : (⟨2, ![16, 16 + 16]⟩ : Shape).Slices ![0, 0] ⟨2, ![16, 16]⟩)
    (hsb : (⟨2, ![16, 16 + 16]⟩ : Shape).Slices ![0, 16] ⟨2, ![16, 16]⟩)
    (h1 : (⟨1, ![16]⟩ : Shape).BroadcastsInDim ⟨2, ![1, 16]⟩ ![1])
    (h2 : (⟨2, ![1, 16]⟩ : Shape).BroadcastsInDim ⟨2, ![A, 16]⟩ ![0, 1])
    (h0 : (⟨0, ![]⟩ : Shape).BroadcastsInDim ⟨2, ![A, 16]⟩ ![]) :
    addf (Host.dotGeneral (DotDims.plain A 16 16) prec
          (maximumf (addf
              (Host.dotGeneral (DotDims.plain A (16 + 16) 16) prec
                (concatenate ⟨2, ![A, 16 + 16]⟩ 1
                  [⟨⟨2, ![A, 16]⟩, addf
                      (Host.dotGeneral (DotDims.plain A 16 16) prec
                        (maximumf AGG (broadcastInDim ⟨2, ![A, 16]⟩ ![] h0 (constant (F := Ideal) ⟨0, ![]⟩ .f32 0x00000000#32)))
                        (transpose ⟨2, ![16, 16]⟩ [1, 0] Wp hT))
                      (broadcastInDim ⟨2, ![A, 16]⟩ ![0, 1] h2 (broadcastInDim ⟨2, ![1, 16]⟩ ![1] h1 bp))⟩,
                   ⟨⟨2, ![A, 16]⟩, RF⟩] hcat)
                (transpose ⟨2, ![16 + 16, 16]⟩ [1, 0] W1 hT32))
              (broadcastInDim ⟨2, ![A, 16]⟩ ![0, 1] h2 (broadcastInDim ⟨2, ![1, 16]⟩ ![1] h1 b1)))
            (broadcastInDim ⟨2, ![A, 16]⟩ ![] h0 (constant (F := Ideal) ⟨0, ![]⟩ .f32 0x00000000#32)))
          (transpose ⟨2, ![16, 16]⟩ [1, 0] W2 hT))
        (broadcastInDim ⟨2, ![A, 16]⟩ ![0, 1] h2 (broadcastInDim ⟨2, ![1, 16]⟩ ![1] h1 b2))
      = out AGG RF Wp bp (extractStridedSlice ⟨2, ![16, 16]⟩ ![0, 0] W1 hsa) (extractStridedSlice ⟨2, ![16, 16]⟩ ![0, 16] W1 hsb)
          b1 W2 b2 := by
  funext i
  obtain ⟨p, q, rfl⟩ : ∃ (p : Fin A) (q : Fin 16), i = ix2 p q := ⟨i 0, i 1, eq_ix2 i⟩
  rw [out_ix2]
  refine (addf_apply _ _ _).trans (congrArg₂ (· + ·) ?_ (host_bias b2 h1 h2 p q))
  refine (host_rowDot prec _ W2 hT p q).trans (rowDot_congr _ _ W2 p p q fun k => ?_)
  rw [mid_ix2]
  refine (maximumf_apply _ _ _).trans (congrArg₂ max ?_ (host_zero h0 p k))
  refine (addf_apply _ _ _).trans (congrArg₂ (· + ·) ?_ (host_bias b1 h1 h2 p k))
  refine (SplitDot.split_dot prec HostSchedule.single _ RF W1 hcat hT32 p k).trans (congrArg₂ (· + ·) ?_ ?_)
  · refine Finset.sum_congr rfl fun j _ => congrArg₂ (· * ·) ?_ ?_
    · rw [post_ix2]
      refine (addf_apply _ _ _).trans (congrArg₂ (· + ·) ?_ (host_bias bp h1 h2 p j))
      refine (host_rowDot prec _ Wp hT p j).trans (rowDot_congr _ _ Wp p p j fun l => ?_)
      exact (maximumf_apply _ _ _).trans (congrArg₂ max rfl (host_zero h0 p l))
    · refine ((slice_cols_ix2 0 W1 hsa k j (by have := j.isLt; omega)).trans ?_).symm
      exact congrArg W1 (congrArg (ix2 k) (Fin.ext (Nat.zero_add _)))
  · refine Finset.sum_congr rfl fun j _ => congrArg (RF (ix2 p j) * ·) ?_
    exact (slice_cols_ix2 16 W1 hsb k j (by have := j.isLt; omega)).symm

end Cert.NodeUpdate
-- ==== Proof.NodeRegion.lean ====
/-
  The second kernel region, read as a value. The region runs the node-update body on a grid of 50 points; point `t` is handed
  rows `4000·t … 4000·t + 3999` of the summed messages and of the right-hand nodes' own features, the seven weight and bias
  arrays whole (the middle layer's matrix as its two halves), and writes rows `4000·t … 4000·t + 3999` of the result. A
  node's new features read that node's rows only, so what point `t` writes is block `t` of the update of the whole arrays;
  the 50 blocks tile the 200,000 rows (row `r` lies in block `r / 4000`), so after the region the result array IS the
  update of the arrays the region was entered with.
-/
import proofs.«170209_j60610578481387_2_alg».proof.Proof.Gen.KernelIdeal.Frame
import proofs.«170209_j60610578481387_2_alg».proof.Proof.NodeUpdate
import Idealize.ShloMosaic.Lib.Pipeline.Value

set_option maxRecDepth 16384

noncomputable section

namespace Cert.KernelIdeal.NodeRegion

open Idealize.ShloMosaic Idealize.ShloMosaic.TcCoe Idealize.SL.Sem Idealize.ShloMosaic.ValueIdx
open Idealize.ShloMosaic.Pipeline (Dat Cfg Window)
open Cert.KernelIdeal Cert.KernelIdeal.Gen

theorem hz : (![0, 0] : Fin 2 → Nat) = fun _ => 0 := funext fun a => by fin_cases a <;> rfl
theorem hz1 : (![0] : Fin 1 → Nat) = fun _ => 0 := funext fun a => by fin_cases a <;> rfl

/-- The printed index maps, decided over the grid: the two row arrays and the result move down one block of rows per point;
    every weight and bias array is handed whole at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0 :=
  (by decide +kernel : ∀ t : Fin grid1.N, _)

/-- One entry of the body's result on a block, against the update of whole arrays: equal when the block's row is the
    array's row and the weights are the same. -/
theorem block_entry (x0 x1 : Vec Ideal S4000x16 .f32) (x2 : Vec Ideal S16x16 .f32) (x3 : Vec Ideal S16 .f32)
    (x4 x5 : Vec Ideal S16x16 .f32) (x6 : Vec Ideal S16 .f32) (x7 : Vec Ideal S16x16 .f32) (x8 : Vec Ideal S16 .f32)
    (AGG RF : S200000x16.Idx → EReal)
    (Wp : S16x16.Idx → EReal) (bp : S16.Idx → EReal) (Wa Wb : S16x16.Idx → EReal) (b1 : S16.Idx → EReal)
    (W2 : S16x16.Idx → EReal) (b2 : S16.Idx → EReal)
    (y : S4000x16.Idx) (i : S200000x16.Idx) (hcol : (i 1).val = (y 1).val)
    (h0 : ∀ k : Fin 16, x0 (ix2 ⟨(y 0).val, idx2_lt0 y⟩ k) = AGG (ix2 ⟨(i 0).val, idx2_lt0 i⟩ k))
    (h1 : ∀ k : Fin 16, x1 (ix2 ⟨(y 0).val, idx2_lt0 y⟩ k) = RF (ix2 ⟨(i 0).val, idx2_lt0 i⟩ k))
    (h2 : x2 = Wp) (h3 : x3 = bp) (h4 : x4 = Wa) (h5 : x5 = Wb) (h6 : x6 = b1) (h7 : x7 = W2) (h8 : x8 = b2) :
    k1_pay1 (k1_pay2 x0 x1 x2 x3 x4 x5 x6 x7) x8 y = NodeUpdate.out AGG RF Wp bp Wa Wb b1 W2 b2 i := by
  subst h2 h3 h4 h5 h6 h7 h8
  obtain ⟨p, q, rfl⟩ : ∃ (p : Fin 4000) (q : Fin 16), y = ix2 p q := ⟨y 0, y 1, eq_ix2 y⟩
  obtain ⟨r, q', rfl⟩ : ∃ (r : Fin 200000) (q' : Fin 16), i = ix2 r q' := ⟨i 0, i 1, eq_ix2 i⟩
  obtain rfl : q' = q := Fin.ext hcol
  exact (NodeUpdate.body_apply none x0 x1 x2 x3 x4 x5 x6 x7 x8 bitsLt_bf16_f32 shapeCasts_S4000x16_S4000x16
      shapeCasts_S16x16_S16x16 transposes_S16x16_p1_0_S16x16 shapeCasts_S16_S1x16 broadcasts_S1x16_S4000x16 p q').trans
    (NodeUpdate.out_rows x0 x1 AGG RF x2 x3 x4 x5 x6 x7 x8 p r q' h0 h1)

variable (V : (c : Dev nD) → (b : Ref sig .tc) → Buf (Elt Ideal) ((c : Thread nD τ).loc b))

/-- The update of the arrays the region finds. -/
abbrev updated (c : Dev nD) : S200000x16.Idx → EReal :=
  NodeUpdate.out (A := 200000) (V c main_v24) (V c main_arg2) (V c main_arg10) (V c main_arg11) (V c main_v25) (V c main_v26)
    (V c main_arg13) (V c main_arg14) (V c main_arg15)

/-- What point `t` writes back is block `t` of the update. -/
theorem flushed_eq (c : Dev nD) (t : Fin cfg1.N) :
    (dat1 V c).flushed 9 t = ((cfg1.win 9).blk t).view.read (Elt Ideal) (updated V c) := by
  show (cfg1.win 9).cut (grid1.coords t) ((dat1 V c).after 9 t) = _
  rw [after1_9]
  unfold out1_9
  rw [View.canon_unit_zero hz]
  simp only [View.ld_unit_zero (S := S4000x16) hz, View.ld_unit_zero (S := S16x16) hz, View.ld_unit_zero (S := S16) hz1]
  obtain ⟨e00, e01, e10, e11, e20, e21, e30, e40, e41, e50, e51, e60, e70, e71, e80, e90, e91⟩ := idx_facts t
  funext j
  refine block_entry (iblk1 V c 0 t) (iblk1 V c 1 t) (iblk1 V c 2 t) (iblk1 V c 3 t) (iblk1 V c 4 t) (iblk1 V c 5 t)
    (iblk1 V c 6 t) (iblk1 V c 7 t) (iblk1 V c 8 t) (V c main_v24) (V c main_arg2) (V c main_arg10) (V c main_arg11)
    (V c main_v25) (V c main_v26) (V c main_arg13) (V c main_arg14) (V c main_arg15) j (((cfg1.win 9).blk t).view.emb j)
    ?_ ?_ ?_ ?_ ?_ ?_ ?_ ?_ ?_ ?_
  · show win1_9.index t (1 : Fin 2) * 16 + 1 * (j 1).val = (j 1).val
    omega
  · intro k
    show V c main_v24 (((cfg1.win 0).blk t).view.emb (ix2 ⟨(j 0).val, _⟩ k)) = V c main_v24 (ix2 ⟨((((cfg1.win 9).blk t).view.emb j) 0).val, _⟩ k)
    refine congrArg (V c main_v24) (funext fun a => Fin.ext ?_)
    match a with
    | ⟨0, _⟩ => show win1_0.index t (0 : Fin 2) * 4000 + 1 * (j 0).val = win1_9.index t (0 : Fin 2) * 4000 + 1 * (j 0).val; omega
    | ⟨1, _⟩ => show win1_0.index t (1 : Fin 2) * 16 + 1 * k.val = k.val; omega
  · intro k
    show V c main_arg2 (((cfg1.win 1).blk t).view.emb (ix2 ⟨(j 0).val, _⟩ k)) = V c main_arg2 (ix2 ⟨((((cfg1.win 9).blk t).view.emb j) 0).val, _⟩ k)
    refine congrArg (V c main_arg2) (funext fun a => Fin.ext ?_)
    match a with
    | ⟨0, _⟩ => show win1_1.index t (0 : Fin 2) * 4000 + 1 * (j 0).val = win1_9.index t (0 : Fin 2) * 4000 + 1 * (j 0).val; omega
    | ⟨1, _⟩ => show win1_1.index t (1 : Fin 2) * 16 + 1 * k.val = k.val; omega
  · funext y
    show V c main_arg10 (((cfg1.win 2).blk t).view.emb y) = V c main_arg10 y
    refine congrArg (V c main_arg10) (funext fun a => Fin.ext ?_)
    match a with
    | ⟨0, _⟩ => show win1_2.index t (0 : Fin 2) * 16 + 1 * (y 0).val = (y 0).val; omega
    | ⟨1, _⟩ => show win1_2.index t (1 : Fin 2) * 16 + 1 * (y 1).val = (y 1).val; omega
  · funext y
    show V c main_arg11 (((cfg1.win 3).blk t).view.emb y) = V c main_arg11 y
    refine congrArg (V c main_arg11) (funext fun a => Fin.ext ?_)
    match a with
    | ⟨0, _⟩ => show win1_3.index t (0 : Fin 1) * 16 + 1 * (y 0).val = (y 0).val; omega
  · funext y
    show V c main_v25 (((cfg1.win 4).blk t).view.emb y) = V c main_v25 y
    refine congrArg (V c main_v25) (funext fun a => Fin.ext ?_)
    match a with
    | ⟨0, _⟩ => show win1_4.index t (0 : Fin 2) * 16 + 1 * (y 0).val = (y 0).val; omega
    | ⟨1, _⟩ => show win1_4.index t (1 : Fin 2) * 16 + 1 * (y 1).val = (y 1).val; omega
  · funext y
    show V c main_v26 (((cfg1.win 5).blk t).view.emb y) = V c main_v26 y
    refine congrArg (V c main_v26) (funext fun a => Fin.ext ?_)
    match a with
    | ⟨0, _⟩ => show win1_5.index t (0 : Fin 2) * 16 + 1 * (y 0).val = (y 0).val; omega
    | ⟨1, _⟩ => show win1_5.index t (1 : Fin 2) * 16 + 1 * (y 1).val = (y 1).val; omega
  · funext y
    show V c main_arg13 (((cfg1.win 6).blk t).view.emb y) = V c main_arg13 y
    refine congrArg (V c main_arg13) (funext fun a => Fin.ext ?_)
    match a with
    | ⟨0, _⟩ => show win1_6.index t (0 : Fin 1) * 16 + 1 * (y 0).val = (y 0).val; omega
  · funext y
    show V c main_arg14 (((cfg1.win 7).blk t).view.emb y) = V c main_arg14 y
    refine congrArg (V c main_arg14) (funext fun a => Fin.ext ?_)
    match a with
    | ⟨0, _⟩ => show win1_7.index t (0 : Fin 2) * 16 + 1 * (y 0).val = (y 0).val; omega
    | ⟨1, _⟩ => show win1_7.index t (1 : Fin 2) * 16 + 1 * (y 1).val = (y 1).val; omega
  · funext y
    show V c main_arg15 (((cfg1.win 8).blk t).view.emb y) = V c main_arg15 y
    refine congrArg (V c main_arg15) (funext fun a => Fin.ext ?_)
    match a with
    | ⟨0, _⟩ => show win1_8.index t (0 : Fin 1) * 16 + 1 * (y 0).val = (y 0).val; omega

/-- An index of the result array is in point `t`'s block iff each coordinate is in the block's range on its axis. -/
theorem mem_blk (t : Fin cfg1.N) (i : S200000x16.Idx) :
    i ∈ ((cfg1.win 9).blk t).view.set ↔ ∀ a : Fin 2, win1_9.index t a * S4000x16.size a ≤ (i a).val ∧ (i a).val < win1_9.index t a * S4000x16.size a + S4000x16.size a := by
  show i ∈ ((View.whole main_v27).slice (win1_9.rect t)).set ↔ _
  rw [View.set_slice_whole, Rect.mem_set_unit]
  exact Iff.rfl

/-- After the region the result array is the update of the arrays it was entered with. -/
theorem final (c : Dev nD) : (dat1 V c).arrAt 9 cfg1.N = updated V c :=
  (dat1 V c).arrAt_eq_of_cover 9 (updated V c) (fun t _ => flushed_eq V c t) fun i => by
    have hN : cfg1.N = 50 := N_1
    have hi0 : ((i : S200000x16.Idx) 0).val < 200000 := (i 0).isLt
    have hi1 : ((i : S200000x16.Idx) 1).val < 16 := (i 1).isLt
    have hlt : ((i : S200000x16.Idx) 0).val / 4000 < cfg1.N := by rw [hN]; omega
    refine ⟨⟨((i : S200000x16.Idx) 0).val / 4000, hlt⟩, flush1_9 _, ?_⟩
    rw [mem_blk]
    obtain ⟨e00, e01, e10, e11, e20, e21, e30, e40, e41, e50, e51, e60, e70, e71, e80, e90, e91⟩ :=
      idx_facts ⟨((i : S200000x16.Idx) 0).val / 4000, hlt⟩
    have e90' : win1_9.index ⟨((i : S200000x16.Idx) 0).val / 4000, hlt⟩ (0 : Fin 2) = ((i : S200000x16.Idx) 0).val / 4000 := e90
    intro a
    match a with
    | ⟨0, _⟩ =>
      show win1_9.index ⟨((i : S200000x16.Idx) 0).val / 4000, hlt⟩ (0 : Fin 2) * 4000 ≤ ((i : S200000x16.Idx) 0).val
        ∧ ((i : S200000x16.Idx) 0).val < win1_9.index ⟨((i : S200000x16.Idx) 0).val / 4000, hlt⟩ (0 : Fin 2) * 4000 + 4000
      omega
    | ⟨1, _⟩ =>
      show win1_9.index ⟨((i : S200000x16.Idx) 0).val / 4000, hlt⟩ (1 : Fin 2) * 16 ≤ ((i : S200000x16.Idx) 1).val
        ∧ ((i : S200000x16.Idx) 1).val < win1_9.index ⟨((i : S200000x16.Idx) 0).val / 4000, hlt⟩ (1 : Fin 2) * 16 + 16
      omega

end Cert.KernelIdeal.NodeRegion

end
-- ==== Proof.KernelValue.lean ====
/-
  The idealized kernel's result as one function of its sixteen arguments. Read from the end: the result array is what the
  second region leaves, the node update of the arrays that region is entered with; of those, the summed messages are the
  host's scatter-add, into a zero array at the edges' right endpoints, of what the first region leaves, the edge messages
  of the arrays THAT region is entered with; and those are the host's gathers of the two feature tables (rounded to bf16,
  which changes nothing on the extended reals) at the edges' endpoints, a negative endpoint counted from the end of the
  table, and the edge features. Every argument array reaches each region as it was launched. The gathers and the
  scatter-add are kept as the operations they are: nothing below looks inside them.
-/
import proofs.«170209_j60610578481387_2_alg».proof.Proof.Gen.KernelIdeal.Frame
import proofs.«170209_j60610578481387_2_alg».proof.Proof.EdgeRegion
import proofs.«170209_j60610578481387_2_alg».proof.Proof.NodeRegion
import Idealize.ShloMosaic.Lib.StableHlo.Run

set_option maxRecDepth 16384

noncomputable section

namespace Cert.KernelIdeal.Composed

open Idealize.ShloMosaic Idealize.ShloMosaic.TcCoe Idealize.SL.Sem Idealize.ShloMosaic.StableHlo
open Cert.KernelIdeal Cert.KernelIdeal.Gen

/-- The edges' left endpoints: row 0 of the edge list. -/
def leftEnd (x3 : (⟨S2x4000000, .i32⟩ : BufTy).Contents (Elt Ideal)) : (⟨S4000000, .i32⟩ : BufTy).Contents (Elt Ideal) :=
  shapeCast _ (extractStridedSlice S1x4000000 ![0, 0] x3 slices_S2x4000000_S1x4000000_0_0) shapeCasts_S1x4000000_S4000000

/-- The edges' right endpoints: row 1 of the edge list. -/
def rightEnd (x3 : (⟨S2x4000000, .i32⟩ : BufTy).Contents (Elt Ideal)) : (⟨S4000000, .i32⟩ : BufTy).Contents (Elt Ideal) :=
  shapeCast _ (extractStridedSlice S1x4000000 ![1, 0] x3 slices_S2x4000000_S1x4000000_1_0) shapeCasts_S1x4000000_S4000000

/-- A negative position counts from the end of a table of 200000 rows. -/
def wrapped (v : (⟨S4000000, .i32⟩ : BufTy).Contents (Elt Ideal)) : (⟨S4000000, .i32⟩ : BufTy).Contents (Elt Ideal) :=
  (select : (⟨S4000000, .i1⟩ : BufTy).Contents (Elt Ideal) → (⟨S4000000, .i32⟩ : BufTy).Contents (Elt Ideal) → (⟨S4000000, .i32⟩ : BufTy).Contents (Elt Ideal) → (⟨S4000000, .i32⟩ : BufTy).Contents (Elt Ideal))
    ((cmpi .slt : (⟨S4000000, .i32⟩ : BufTy).Contents (Elt Ideal) → (⟨S4000000, .i32⟩ : BufTy).Contents (Elt Ideal) → (⟨S4000000, .i1⟩ : BufTy).Contents (Elt Ideal)) v
      ((broadcastInDim S4000000 ![] bcast_S_S4000000 : (⟨S_, .i32⟩ : BufTy).Contents (Elt Ideal) → (⟨S4000000, .i32⟩ : BufTy).Contents (Elt Ideal)) (constantI S_ 32 0#32)))
    ((addi : (⟨S4000000, .i32⟩ : BufTy).Contents (Elt Ideal) → (⟨S4000000, .i32⟩ : BufTy).Contents (Elt Ideal) → (⟨S4000000, .i32⟩ : BufTy).Contents (Elt Ideal)) v
      ((broadcastInDim S4000000 ![] bcast_S_S4000000 : (⟨S_, .i32⟩ : BufTy).Contents (Elt Ideal) → (⟨S4000000, .i32⟩ : BufTy).Contents (Elt Ideal)) (constantI S_ 32 200000#32)))
    v

/-- Positions as the one-column index array a gather or a scatter takes. -/
def asColumn (v : (⟨S4000000, .i32⟩ : BufTy).Contents (Elt Ideal)) : (⟨S4000000x1, .i32⟩ : BufTy).Contents (Elt Ideal) :=
  (broadcastInDim S4000000x1 ![0] bcast_S4000000_S4000000x1_0 : (⟨S4000000, .i32⟩ : BufTy).Contents (Elt Ideal) → (⟨S4000000x1, .i32⟩ : BufTy).Contents (Elt Ideal)) v

/-- A feature table's rows at the edges' endpoints. -/
def rowsAt (tbl : (⟨S200000x16, .f32⟩ : BufTy).Contents (Elt Ideal)) (v : (⟨S4000000, .i32⟩ : BufTy).Contents (Elt Ideal)) : (⟨S4000000x16, .bf16⟩ : BufTy).Contents (Elt Ideal) :=
  Host.gather gather_S200000x16_S4000000x1_S4000000x16_1_0_n_n_0_1_116
    (truncf (F := Ideal) .bf16 (tbl : FVec Ideal S200000x16 .f32) bitsLt_bf16_f32 : FVec Ideal S200000x16 .bf16) (asColumn (wrapped v))

/-- The edge features as the first region is handed them. -/
def edgeRows (x1 : (⟨S4000000x1, .f32⟩ : BufTy).Contents (Elt Ideal)) : (⟨S4000000x1, .bf16⟩ : BufTy).Contents (Elt Ideal) :=
  (truncf (F := Ideal) .bf16 (x1 : FVec Ideal S4000000x1 .f32) bitsLt_bf16_f32 : FVec Ideal S4000000x1 .bf16)

/-- The edge messages of the arguments. -/
def messages (x0 : (⟨S200000x16, .f32⟩ : BufTy).Contents (Elt Ideal)) (x1 : (⟨S4000000x1, .f32⟩ : BufTy).Contents (Elt Ideal)) (x2 : (⟨S200000x16, .f32⟩ : BufTy).Contents (Elt Ideal))
    (x3 : (⟨S2x4000000, .i32⟩ : BufTy).Contents (Elt Ideal)) (x4 : (⟨S16x16, .f32⟩ : BufTy).Contents (Elt Ideal)) (x5 : (⟨S16, .f32⟩ : BufTy).Contents (Elt Ideal)) (x6 : (⟨S16x1, .f32⟩ : BufTy).Contents (Elt Ideal))
    (x7 x8 : (⟨S16x16, .f32⟩ : BufTy).Contents (Elt Ideal)) (x9 : (⟨S16, .f32⟩ : BufTy).Contents (Elt Ideal)) : (⟨S4000000x16, .f32⟩ : BufTy).Contents (Elt Ideal) :=
  EdgeMessage.msg (A := 4000000) (rowsAt x0 (leftEnd x3)) (edgeRows x1) (rowsAt x2 (rightEnd x3)) x4 x5 x6 x7 x8 x9

/-- The messages summed at the edges' right endpoints. -/
def summed (x0 : (⟨S200000x16, .f32⟩ : BufTy).Contents (Elt Ideal)) (x1 : (⟨S4000000x1, .f32⟩ : BufTy).Contents (Elt Ideal)) (x2 : (⟨S200000x16, .f32⟩ : BufTy).Contents (Elt Ideal))
    (x3 : (⟨S2x4000000, .i32⟩ : BufTy).Contents (Elt Ideal)) (x4 : (⟨S16x16, .f32⟩ : BufTy).Contents (Elt Ideal)) (x5 : (⟨S16, .f32⟩ : BufTy).Contents (Elt Ideal)) (x6 : (⟨S16x1, .f32⟩ : BufTy).Contents (Elt Ideal))
    (x7 x8 : (⟨S16x16, .f32⟩ : BufTy).Contents (Elt Ideal)) (x9 : (⟨S16, .f32⟩ : BufTy).Contents (Elt Ideal)) : (⟨S200000x16, .f32⟩ : BufTy).Contents (Elt Ideal) :=
  Host.scatterAdd (F := Ideal) (φ := .f32) scatter_S200000x16_S4000000x1_S4000000x16_1_0_0_1
    ((broadcastInDim S200000x16 ![] bcast_S_S200000x16 : (⟨S_, .f32⟩ : BufTy).Contents (Elt Ideal) → (⟨S200000x16, .f32⟩ : BufTy).Contents (Elt Ideal)) (constant (F := Ideal) S_ .f32 0x00000000#32))
    (asColumn (rightEnd x3)) (messages x0 x1 x2 x3 x4 x5 x6 x7 x8 x9 : FVec Ideal S4000000x16 .f32)

/-- The kernel's result. -/
def result (x0 : (⟨S200000x16, .f32⟩ : BufTy).Contents (Elt Ideal)) (x1 : (⟨S4000000x1, .f32⟩ : BufTy).Contents (Elt Ideal)) (x2 : (⟨S200000x16, .f32⟩ : BufTy).Contents (Elt Ideal))
    (x3 : (⟨S2x4000000, .i32⟩ : BufTy).Contents (Elt Ideal)) (x4 : (⟨S16x16, .f32⟩ : BufTy).Contents (Elt Ideal)) (x5 : (⟨S16, .f32⟩ : BufTy).Contents (Elt Ideal)) (x6 : (⟨S16x1, .f32⟩ : BufTy).Contents (Elt Ideal))
    (x7 x8 : (⟨S16x16, .f32⟩ : BufTy).Contents (Elt Ideal)) (x9 : (⟨S16, .f32⟩ : BufTy).Contents (Elt Ideal)) (x10 : (⟨S16x16, .f32⟩ : BufTy).Contents (Elt Ideal)) (x11 : (⟨S16, .f32⟩ : BufTy).Contents (Elt Ideal))
    (x12 : (⟨S16x32, .f32⟩ : BufTy).Contents (Elt Ideal)) (x13 : (⟨S16, .f32⟩ : BufTy).Contents (Elt Ideal)) (x14 : (⟨S16x16, .f32⟩ : BufTy).Contents (Elt Ideal)) (x15 : (⟨S16, .f32⟩ : BufTy).Contents (Elt Ideal)) :
    (⟨S200000x16, .f32⟩ : BufTy).Contents (Elt Ideal) :=
  NodeUpdate.out (A := 200000) (summed x0 x1 x2 x3 x4 x5 x6 x7 x8 x9) x2 x10 x11
    (extractStridedSlice S16x16 ![0, 0] x12 slices_S16x32_S16x16_0_0) (extractStridedSlice S16x16 ![0, 16] x12 slices_S16x32_S16x16_0_16)
    x13 x14 x15

variable (m : (ℓ : Loc nD τ sig) → Buf (Elt Ideal) ℓ) (ρ : Dev nD → PrngReg)

/-! ## The first region's entry -/

/-- Argument 3 is as launched when the first region is entered: no host operation before it writes it. -/
theorem V1_arg3 (c : Dev nD) : V1 m ρ c main_arg3 = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Argument 4 is as launched when the first region is entered: no host operation before it writes it. -/
theorem V1_arg4 (c : Dev nD) : V1 m ρ c main_arg4 = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Argument 5 is as launched when the first region is entered: no host operation before it writes it. -/
theorem V1_arg5 (c : Dev nD) : V1 m ρ c main_arg5 = m ((c : Thread nD τ).loc main_arg5) :=
  (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Argument 6 is as launched when the first region is entered: no host operation before it writes it. -/
theorem V1_arg6 (c : Dev nD) : V1 m ρ c main_arg6 = m ((c : Thread nD τ).loc main_arg6) :=
  (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Argument 7 is as launched when the first region is entered: no host operation before it writes it. -/
theorem V1_arg7 (c : Dev nD) : V1 m ρ c main_arg7 = m ((c : Thread nD τ).loc main_arg7) :=
  (StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Argument 8 is as launched when the first region is entered: no host operation before it writes it. -/
theorem V1_arg8 (c : Dev nD) : V1 m ρ c main_arg8 = m ((c : Thread nD τ).loc main_arg8) :=
  (StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Argument 9 is as launched when the first region is entered: no host operation before it writes it. -/
theorem V1_arg9 (c : Dev nD) : V1 m ρ c main_arg9 = m ((c : Thread nD τ).loc main_arg9) :=
  (StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Argument 12 is as launched when the first region is entered: no host operation before it writes it. -/
theorem V1_arg12 (c : Dev nD) : V1 m ρ c main_arg12 = m ((c : Thread nD τ).loc main_arg12) :=
  (StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Argument 2 is as launched when the first region is entered: no host operation before it writes it. -/
theorem V1_arg2 (c : Dev nD) : V1 m ρ c main_arg2 = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Argument 10 is as launched when the first region is entered: no host operation before it writes it. -/
theorem V1_arg10 (c : Dev nD) : V1 m ρ c main_arg10 = m ((c : Thread nD τ).loc main_arg10) :=
  (StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Argument 11 is as launched when the first region is entered: no host operation before it writes it. -/
theorem V1_arg11 (c : Dev nD) : V1 m ρ c main_arg11 = m ((c : Thread nD τ).loc main_arg11) :=
  (StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Argument 13 is as launched when the first region is entered: no host operation before it writes it. -/
theorem V1_arg13 (c : Dev nD) : V1 m ρ c main_arg13 = m ((c : Thread nD τ).loc main_arg13) :=
  (StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Argument 14 is as launched when the first region is entered: no host operation before it writes it. -/
theorem V1_arg14 (c : Dev nD) : V1 m ρ c main_arg14 = m ((c : Thread nD τ).loc main_arg14) :=
  (StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Argument 15 is as launched when the first region is entered: no host operation before it writes it. -/
theorem V1_arg15 (c : Dev nD) : V1 m ρ c main_arg15 = m ((c : Thread nD τ).loc main_arg15) :=
  (StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- The right endpoints when the first region is entered. -/
theorem V1_v3 (c : Dev nD) : V1 m ρ c main_v3 = rightEnd (m ((c : Thread nD τ).loc main_arg3)) := by
  show StableHlo.after hostOps0 (W0 m ρ c) (Proc.devRef .tc main_v3) = _
  dsimp only [hostOps0]
  after_results_simp
  rfl

/-- The left nodes' rows at the edges when the first region is entered. -/
theorem V1_v13 (c : Dev nD) : V1 m ρ c main_v13 = rowsAt (m ((c : Thread nD τ).loc main_arg0)) (leftEnd (m ((c : Thread nD τ).loc main_arg3))) := by
  show StableHlo.after hostOps0 (W0 m ρ c) (Proc.devRef .tc main_v13) = _
  dsimp only [hostOps0]
  after_results_simp
  rfl

/-- The edge features when the first region is entered. -/
theorem V1_v6 (c : Dev nD) : V1 m ρ c main_v6 = edgeRows (m ((c : Thread nD τ).loc main_arg1)) := by
  show StableHlo.after hostOps0 (W0 m ρ c) (Proc.devRef .tc main_v6) = _
  dsimp only [hostOps0]
  after_results_simp
  rfl

/-- The right nodes' rows at the edges when the first region is entered. -/
theorem V1_v20 (c : Dev nD) : V1 m ρ c main_v20 = rowsAt (m ((c : Thread nD τ).loc main_arg2)) (rightEnd (m ((c : Thread nD τ).loc main_arg3))) := by
  show StableHlo.after hostOps0 (W0 m ρ c) (Proc.devRef .tc main_v20) = _
  dsimp only [hostOps0]
  after_results_simp
  rfl

/-! ## Between the regions -/

/-- What the first region leaves in its result array: the messages of the arguments. -/
theorem V2_v21 (c : Dev nD) : V2 m ρ c main_v21
    = messages (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W2_arr m ρ c 9).trans ((EdgeRegion.final (V1 m ρ) c).trans ?_)
  show EdgeMessage.msg (A := 4000000) (V1 m ρ c main_v13) (V1 m ρ c main_v6) (V1 m ρ c main_v20) (V1 m ρ c main_arg4)
    (V1 m ρ c main_arg5) (V1 m ρ c main_arg6) (V1 m ρ c main_arg7) (V1 m ρ c main_arg8) (V1 m ρ c main_arg9) = _
  rw [V1_v13 m ρ c, V1_v6 m ρ c, V1_v20 m ρ c, V1_arg4 m ρ c, V1_arg5 m ρ c, V1_arg6 m ρ c, V1_arg7 m ρ c, V1_arg8 m ρ c, V1_arg9 m ρ c]
  rfl

/-- The right endpoints pass the first region untouched. -/
theorem V2_v3 (c : Dev nD) : V2 m ρ c main_v3 = rightEnd (m ((c : Thread nD τ).loc main_arg3)) :=
  (W2_of_ne m ρ c main_v3 (by decide)).trans (V1_v3 m ρ c)

/-- The middle layer's matrix passes the first region untouched. -/
theorem V2_arg12 (c : Dev nD) : V2 m ρ c main_arg12 = m ((c : Thread nD τ).loc main_arg12) :=
  (W2_of_ne m ρ c main_arg12 (by decide)).trans (V1_arg12 m ρ c)

/-! ## The second region's entry -/

/-- Argument 2 is as launched when the second region is entered: the host operations between the regions do not write
    it and the first region does not touch it. -/
theorem V3_arg2 (c : Dev nD) : V3 m ρ c main_arg2 = m ((c : Thread nD τ).loc main_arg2) :=
  (StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans
    ((W2_of_ne m ρ c main_arg2 (by decide)).trans (V1_arg2 m ρ c))

/-- Argument 10 is as launched when the second region is entered: the host operations between the regions do not write
    it and the first region does not touch it. -/
theorem V3_arg10 (c : Dev nD) : V3 m ρ c main_arg10 = m ((c : Thread nD τ).loc main_arg10) :=
  (StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans
    ((W2_of_ne m ρ c main_arg10 (by decide)).trans (V1_arg10 m ρ c))

/-- Argument 11 is as launched when the second region is entered: the host operations between the regions do not write
    it and the first region does not touch it. -/
theorem V3_arg11 (c : Dev nD) : V3 m ρ c main_arg11 = m ((c : Thread nD τ).loc main_arg11) :=
  (StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans
    ((W2_of_ne m ρ c main_arg11 (by decide)).trans (V1_arg11 m ρ c))

/-- Argument 13 is as launched when the second region is entered: the host operations between the regions do not write
    it and the first region does not touch it. -/
theorem V3_arg13 (c : Dev nD) : V3 m ρ c main_arg13 = m ((c : Thread nD τ).loc main_arg13) :=
  (StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans
    ((W2_of_ne m ρ c main_arg13 (by decide)).trans (V1_arg13 m ρ c))

/-- Argument 14 is as launched when the second region is entered: the host operations between the regions do not write
    it and the first region does not touch it. -/
theorem V3_arg14 (c : Dev nD) : V3 m ρ c main_arg14 = m ((c : Thread nD τ).loc main_arg14) :=
  (StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans
    ((W2_of_ne m ρ c main_arg14 (by decide)).trans (V1_arg14 m ρ c))

/-- Argument 15 is as launched when the second region is entered: the host operations between the regions do not write
    it and the first region does not touch it. -/
theorem V3_arg15 (c : Dev nD) : V3 m ρ c main_arg15 = m ((c : Thread nD τ).loc main_arg15) :=
  (StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans
    ((W2_of_ne m ρ c main_arg15 (by decide)).trans (V1_arg15 m ρ c))

/-- The summed messages when the second region is entered. -/
theorem V3_v24 (c : Dev nD) : V3 m ρ c main_v24
    = summed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps1 (W2 m ρ c) (Proc.devRef .tc main_v24) = _
  dsimp only [hostOps1]
  after_results
  show Host.scatterAdd (F := Ideal) (φ := .f32) scatter_S200000x16_S4000000x1_S4000000x16_1_0_0_1
    ((broadcastInDim S200000x16 ![] bcast_S_S200000x16 : (⟨S_, .f32⟩ : BufTy).Contents (Elt Ideal) → (⟨S200000x16, .f32⟩ : BufTy).Contents (Elt Ideal)) (constant (F := Ideal) S_ .f32 0x00000000#32))
    (asColumn (V2 m ρ c main_v3)) (V2 m ρ c main_v21 : FVec Ideal S4000000x16 .f32) = _
  rw [V2_v3 m ρ c, V2_v21 m ρ c]
  rfl

/-- The first half of the middle layer's matrix when the second region is entered. -/
theorem V3_v25 (c : Dev nD) : V3 m ρ c main_v25 = extractStridedSlice S16x16 ![0, 0] (m ((c : Thread nD τ).loc main_arg12)) slices_S16x32_S16x16_0_0 := by
  show StableHlo.after hostOps1 (W2 m ρ c) (Proc.devRef .tc main_v25) = _
  dsimp only [hostOps1]
  after_results
  show extractStridedSlice S16x16 ![0, 0] (V2 m ρ c main_arg12) slices_S16x32_S16x16_0_0 = _
  rw [V2_arg12 m ρ c]

/-- The second half of the middle layer's matrix when the second region is entered. -/
theorem V3_v26 (c : Dev nD) : V3 m ρ c main_v26 = extractStridedSlice S16x16 ![0, 16] (m ((c : Thread nD τ).loc main_arg12)) slices_S16x32_S16x16_0_16 := by
  show StableHlo.after hostOps1 (W2 m ρ c) (Proc.devRef .tc main_v26) = _
  dsimp only [hostOps1]
  after_results
  show extractStridedSlice S16x16 ![0, 16] (V2 m ρ c main_arg12) slices_S16x32_S16x16_0_16 = _
  rw [V2_arg12 m ρ c]

/-! ## The result -/

/-- The last boundary valuation's value of the result array: the kernel's result of the arguments. -/
theorem value (c : Dev nD) : W4 m ρ c (Proc.devRef .tc main_v27)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W4_arr m ρ c 9).trans ((NodeRegion.final (V3 m ρ) c).trans ?_)
  show NodeUpdate.out (A := 200000) (V3 m ρ c main_v24) (V3 m ρ c main_arg2) (V3 m ρ c main_arg10) (V3 m ρ c main_arg11)
    (V3 m ρ c main_v25) (V3 m ρ c main_v26) (V3 m ρ c main_arg13) (V3 m ρ c main_arg14) (V3 m ρ c main_arg15) = _
  rw [V3_v24 m ρ c, V3_arg2 m ρ c, V3_arg10 m ρ c, V3_arg11 m ρ c, V3_v25 m ρ c, V3_v26 m ρ c, V3_arg13 m ρ c, V3_arg14 m ρ c,
    V3_arg15 m ρ c]
  rfl

end Cert.KernelIdeal.Composed

end
-- ==== Proof.RefValue.lean ====
/-
  The reference's result is the kernel's result, as functions of the sixteen arguments. The reference gathers the two
  feature tables at the edges' endpoints exactly as the kernel's host operations do (the kernel rounds the tables to bf16
  first, the identity on the extended reals), computes every edge's message by dot_generals against transposed weights
  — the array the kernel's first region leaves —, sums the messages at the right endpoints by the same scatter-add into
  the same zero array, and updates every node from its sum and its own features with the middle layer applied to the two
  laid side by side — the array the kernel's second region leaves from the two halves of that layer's matrix.
-/
import proofs.«170209_j60610578481387_2_alg».proof.Proof.Gen.ReferenceIdeal.Read
import proofs.«170209_j60610578481387_2_alg».proof.Proof.KernelValue

set_option maxRecDepth 16384

noncomputable section

namespace Cert.ReferenceIdeal.RefValue

open Idealize.ShloMosaic Cert.ReferenceIdeal Cert.ReferenceIdeal.Gen Cert.ReferenceIdeal.Read

/-- The reference's gather of the left table is the kernel's. -/
theorem left_rows (x0 : (⟨S200000x16, .f32⟩ : BufTy).Contents (Elt Ideal)) (x3 : (⟨S2x4000000, .i32⟩ : BufTy).Contents (Elt Ideal)) :
    val_main_v10 (F := Ideal) x0 x3 = Cert.KernelIdeal.Composed.rowsAt x0 (Cert.KernelIdeal.Composed.leftEnd x3) := rfl

/-- The reference's gather of the right table is the kernel's. -/
theorem right_rows (x2 : (⟨S200000x16, .f32⟩ : BufTy).Contents (Elt Ideal)) (x3 : (⟨S2x4000000, .i32⟩ : BufTy).Contents (Elt Ideal)) :
    val_main_v25 (F := Ideal) x2 x3 = Cert.KernelIdeal.Composed.rowsAt x2 (Cert.KernelIdeal.Composed.rightEnd x3) := rfl

/-- The reference's array of messages is the edge messages of its gathered rows. -/
theorem messages_eq (x0 : (⟨S200000x16, .f32⟩ : BufTy).Contents (Elt Ideal)) (x1 : (⟨S4000000x1, .f32⟩ : BufTy).Contents (Elt Ideal)) (x2 : (⟨S200000x16, .f32⟩ : BufTy).Contents (Elt Ideal))
    (x3 : (⟨S2x4000000, .i32⟩ : BufTy).Contents (Elt Ideal)) (x4 : (⟨S16x16, .f32⟩ : BufTy).Contents (Elt Ideal)) (x5 : (⟨S16, .f32⟩ : BufTy).Contents (Elt Ideal)) (x6 : (⟨S16x1, .f32⟩ : BufTy).Contents (Elt Ideal))
    (x7 x8 : (⟨S16x16, .f32⟩ : BufTy).Contents (Elt Ideal)) (x9 : (⟨S16, .f32⟩ : BufTy).Contents (Elt Ideal)) :
    val_main_v34 (F := Ideal) x0 x1 x2 x3 x4 x5 x6 x7 x8 x9
      = EdgeMessage.msg (A := 4000000) (val_main_v10 (F := Ideal) x0 x3) x1 (val_main_v25 (F := Ideal) x2 x3) x4 x5 x6 x7 x8 x9 :=
  EdgeMessage.host_eq none (val_main_v10 (F := Ideal) x0 x3) x1 (val_main_v25 (F := Ideal) x2 x3) x4 x5 x6 x7 x8 x9
    transposes_S16x16_S16x16_1_0 transposes_S16x1_S1x16_1_0 bcast_S16_S1x16_1 bcast_S1x16_S4000000x16_0_1 bcast_S_S4000000x16

/-- So it is the kernel's array of messages. -/
theorem messages_kernel (x0 : (⟨S200000x16, .f32⟩ : BufTy).Contents (Elt Ideal)) (x1 : (⟨S4000000x1, .f32⟩ : BufTy).Contents (Elt Ideal)) (x2 : (⟨S200000x16, .f32⟩ : BufTy).Contents (Elt Ideal))
    (x3 : (⟨S2x4000000, .i32⟩ : BufTy).Contents (Elt Ideal)) (x4 : (⟨S16x16, .f32⟩ : BufTy).Contents (Elt Ideal)) (x5 : (⟨S16, .f32⟩ : BufTy).Contents (Elt Ideal)) (x6 : (⟨S16x1, .f32⟩ : BufTy).Contents (Elt Ideal))
    (x7 x8 : (⟨S16x16, .f32⟩ : BufTy).Contents (Elt Ideal)) (x9 : (⟨S16, .f32⟩ : BufTy).Contents (Elt Ideal)) :
    val_main_v34 (F := Ideal) x0 x1 x2 x3 x4 x5 x6 x7 x8 x9 = Cert.KernelIdeal.Composed.messages x0 x1 x2 x3 x4 x5 x6 x7 x8 x9 := by
  rw [messages_eq, left_rows, right_rows]
  rfl

/-- The reference's summed messages are the kernel's. -/
theorem summed_kernel (x0 : (⟨S200000x16, .f32⟩ : BufTy).Contents (Elt Ideal)) (x1 : (⟨S4000000x1, .f32⟩ : BufTy).Contents (Elt Ideal)) (x2 : (⟨S200000x16, .f32⟩ : BufTy).Contents (Elt Ideal))
    (x3 : (⟨S2x4000000, .i32⟩ : BufTy).Contents (Elt Ideal)) (x4 : (⟨S16x16, .f32⟩ : BufTy).Contents (Elt Ideal)) (x5 : (⟨S16, .f32⟩ : BufTy).Contents (Elt Ideal)) (x6 : (⟨S16x1, .f32⟩ : BufTy).Contents (Elt Ideal))
    (x7 x8 : (⟨S16x16, .f32⟩ : BufTy).Contents (Elt Ideal)) (x9 : (⟨S16, .f32⟩ : BufTy).Contents (Elt Ideal)) :
    val_main_v37 (F := Ideal) x0 x1 x2 x3 x4 x5 x6 x7 x8 x9 = Cert.KernelIdeal.Composed.summed x0 x1 x2 x3 x4 x5 x6 x7 x8 x9 := by
  unfold val_main_v37
  rw [messages_kernel]
  rfl

/-- The reference's result is the node update of its summed messages, with the middle layer's matrix cut in two. -/
theorem result_eq (x0 : (⟨S200000x16, .f32⟩ : BufTy).Contents (Elt Ideal)) (x1 : (⟨S4000000x1, .f32⟩ : BufTy).Contents (Elt Ideal)) (x2 : (⟨S200000x16, .f32⟩ : BufTy).Contents (Elt Ideal))
    (x3 : (⟨S2x4000000, .i32⟩ : BufTy).Contents (Elt Ideal)) (x4 : (⟨S16x16, .f32⟩ : BufTy).Contents (Elt Ideal)) (x5 : (⟨S16, .f32⟩ : BufTy).Contents (Elt Ideal)) (x6 : (⟨S16x1, .f32⟩ : BufTy).Contents (Elt Ideal))
    (x7 x8 : (⟨S16x16, .f32⟩ : BufTy).Contents (Elt Ideal)) (x9 : (⟨S16, .f32⟩ : BufTy).Contents (Elt Ideal)) (x10 : (⟨S16x16, .f32⟩ : BufTy).Contents (Elt Ideal)) (x11 : (⟨S16, .f32⟩ : BufTy).Contents (Elt Ideal))
    (x12 : (⟨S16x32, .f32⟩ : BufTy).Contents (Elt Ideal)) (x13 : (⟨S16, .f32⟩ : BufTy).Contents (Elt Ideal)) (x14 : (⟨S16x16, .f32⟩ : BufTy).Contents (Elt Ideal)) (x15 : (⟨S16, .f32⟩ : BufTy).Contents (Elt Ideal)) :
    val_main_v55 (F := Ideal) x0 x1 x2 x3 x4 x5 x6 x7 x8 x9 x10 x11 x12 x13 x14 x15
      = NodeUpdate.out (A := 200000) (val_main_v37 (F := Ideal) x0 x1 x2 x3 x4 x5 x6 x7 x8 x9) x2 x10 x11
          (extractStridedSlice Cert.KernelIdeal.S16x16 ![0, 0] x12 Cert.KernelIdeal.Gen.slices_S16x32_S16x16_0_0)
          (extractStridedSlice Cert.KernelIdeal.S16x16 ![0, 16] x12 Cert.KernelIdeal.Gen.slices_S16x32_S16x16_0_16) x13 x14 x15 :=
  NodeUpdate.host_eq none (val_main_v37 (F := Ideal) x0 x1 x2 x3 x4 x5 x6 x7 x8 x9) x2 x10 x11 x12 x13 x14 x15
    transposes_S16x16_S16x16_1_0 transposes_S16x32_S32x16_1_0 concatenates_S200000x16_S200000x16_S200000x32_d1
    Cert.KernelIdeal.Gen.slices_S16x32_S16x16_0_0 Cert.KernelIdeal.Gen.slices_S16x32_S16x16_0_16
    bcast_S16_S1x16_1 bcast_S1x16_S200000x16_0_1 bcast_S_S200000x16

/-- So it is the kernel's result. -/
theorem result_kernel (x0 : (⟨S200000x16, .f32⟩ : BufTy).Contents (Elt Ideal)) (x1 : (⟨S4000000x1, .f32⟩ : BufTy).Contents (Elt Ideal)) (x2 : (⟨S200000x16, .f32⟩ : BufTy).Contents (Elt Ideal))
    (x3 : (⟨S2x4000000, .i32⟩ : BufTy).Contents (Elt Ideal)) (x4 : (⟨S16x16, .f32⟩ : BufTy).Contents (Elt Ideal)) (x5 : (⟨S16, .f32⟩ : BufTy).Contents (Elt Ideal)) (x6 : (⟨S16x1, .f32⟩ : BufTy).Contents (Elt Ideal))
    (x7 x8 : (⟨S16x16, .f32⟩ : BufTy).Contents (Elt Ideal)) (x9 : (⟨S16, .f32⟩ : BufTy).Contents (Elt Ideal)) (x10 : (⟨S16x16, .f32⟩ : BufTy).Contents (Elt Ideal)) (x11 : (⟨S16, .f32⟩ : BufTy).Contents (Elt Ideal))
    (x12 : (⟨S16x32, .f32⟩ : BufTy).Contents (Elt Ideal)) (x13 : (⟨S16, .f32⟩ : BufTy).Contents (Elt Ideal)) (x14 : (⟨S16x16, .f32⟩ : BufTy).Contents (Elt Ideal)) (x15 : (⟨S16, .f32⟩ : BufTy).Contents (Elt Ideal)) :
    val_main_v55 (F := Ideal) x0 x1 x2 x3 x4 x5 x6 x7 x8 x9 x10 x11 x12 x13 x14 x15 = Cert.KernelIdeal.Composed.result x0 x1 x2 x3 x4 x5 x6 x7 x8 x9 x10 x11 x12 x13 x14 x15 := by
  rw [result_eq, summed_kernel]
  rfl

end Cert.ReferenceIdeal.RefValue

end
-- ==== Proof.lean ====
/-
  A bipartite message-passing layer on 200,000 left nodes, 200,000 right nodes and 4,000,000 edges, 16 features a node
  and 1 an edge. Every edge gathers the feature rows of its two endpoints (a negative endpoint counted from the end of the
  table); its message is
    msg(e) = max (((gl(e)·Wlᵀ + bl) + ef(e)·Weᵀ) + gr(e)·Wrᵀ) 0 · Wfᵀ + bf ;
  the messages are summed at the edges' right endpoints, and every right node is updated from its sum `agg` and its own
  features `rf`:
    post = max agg 0 · Wpostᵀ + bpost,   h = max ([post, rf]·W₁ᵀ + b₁) 0,   out = h·W₂ᵀ + b₂ .
  The kernel computes the messages in one tiled region (500 blocks of 8000 edges) and the update in another (50 blocks of
  4000 nodes), with the gathers and the scatter-add left to the host between them, operands rounded to bf16 before each
  product, and the middle layer applied as `post·W₁ₐᵀ + rf·W₁ᵦᵀ` on the two halves of `W₁`. The reference is the same
  composition in host operations with one product by the whole `W₁ᵀ` on the rows `[post, rf]`.
  On the extended reals a change of float format is the identity, a product into a zero accumulator and a dot_general are
  the same finite sum, and a sum over 32 positions is the sum over the first 16 plus the sum over the last 16; an entry of
  either tiled computation reads its own row only, so the blocks assemble into the whole arrays. The gathers and the
  scatter-add are the same operations on the same arrays on both sides and are never opened. No step needs an entry to be
  finite, so the precondition is not used by the value claim.
-/
import proofs.«170209_j60610578481387_2_alg».proof.Defs
import proofs.«170209_j60610578481387_2_alg».proof.Proof.Gen.Kernel
import proofs.«170209_j60610578481387_2_alg».proof.Proof.Gen.Kernel.Skeleton
import proofs.«170209_j60610578481387_2_alg».proof.Proof.Gen.Kernel.Launch
import proofs.«170209_j60610578481387_2_alg».proof.Proof.Gen.Kernel.Points
import proofs.«170209_j60610578481387_2_alg».proof.Proof.Gen.Kernel.Frame
import proofs.«170209_j60610578481387_2_alg».proof.Proof.Gen.KernelIdeal
import proofs.«170209_j60610578481387_2_alg».proof.Proof.Gen.KernelIdeal.Skeleton
import proofs.«170209_j60610578481387_2_alg».proof.Proof.Gen.KernelIdeal.Launch
import proofs.«170209_j60610578481387_2_alg».proof.Proof.Gen.KernelIdeal.Points
import proofs.«170209_j60610578481387_2_alg».proof.Proof.Gen.KernelIdeal.Frame
import proofs.«170209_j60610578481387_2_alg».proof.Proof.Gen.ReferenceIdeal
import proofs.«170209_j60610578481387_2_alg».proof.Proof.Gen.Pre_finite_inputs
import proofs.«170209_j60610578481387_2_alg».proof.Proof.Gen.ReferenceIdeal.Read
import proofs.«170209_j60610578481387_2_alg».proof.Proof.KernelRun
import proofs.«170209_j60610578481387_2_alg».proof.Proof.KernelValue
import proofs.«170209_j60610578481387_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments as launched: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: the idealization rewrote nothing. -/
theorem preserves : Cert.preserves_Kernel_KernelIdeal := trivial

/-- From memories agreeing on the sixteen arguments both programs end with the layer's output of those arguments. -/
theorem algebraic : Cert.algebraic_KernelIdeal_ReferenceIdeal := by
  intro m ρ m' ρ' _ hagree
  refine ⟨fun c => Cert.KernelIdeal.Composed.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Composed.value m ρ c), (h c).2⟩)
      (Cert.KernelIdeal.RunValue.run_value (F := Ideal) m ρ)
  · refine (θ_run Cert.ReferenceIdeal.defs _ _).mono (fun _ h c => ⟨?_, (h c).2⟩)
      (Cert.ReferenceIdeal.Value.run (F := Ideal) m' ρ')
    refine (h c).1.trans ?_
    obtain ⟨a0, a1, a2, a3, a4, a5, a6, a7, a8, a9, a10, a11, a12, a13, a14, a15⟩ := hagree c
    rw [Cert.ReferenceIdeal.Read.val_main_v55_eq, Cert.ReferenceIdeal.RefValue.result_kernel,
      a0, a1, a2, a3, a4, a5, a6, a7, a8, a9, a10, a11, a12, a13, a14, a15]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
